-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4096x50 : S_.BroadcastsInDim S4096x50 (![] : Fin 0 → Fin S4096x50.rank)
  reducesTo_S4096x50_S_d0_1 : S4096x50.ReducesTo [0, 1] S_

variable [Facts]

def fn {F : FTy → Type} [FloatOps F] (main_arg0 : IVec S4096x50 32) (main_arg1 : FVec F S100000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_c_0 : IVec S_ 32 := constantI S_ 32 0#32
  let main_v4 : IVec S4096x50 32 := broadcastInDim S4096x50 ![] bcast_S_S4096x50 main_c_0
  let main_v5 : IVec S4096x50 1 := cmpi .sge main_arg0 main_v4
  let main_c_1 : IVec S_ 32 := constantI S_ 32 99999#32
  let main_v6 : IVec S4096x50 32 := broadcastInDim S4096x50 ![] bcast_S_S4096x50 main_c_1
  let main_v7 : IVec S4096x50 1 := cmpi .sle main_arg0 main_v6
  let main_v8 : IVec S4096x50 1 := andi main_v5 main_v7
  let main_c_2 : IVec S_ 1 := constantI S_ 1 1#1
  let main_v9 : IVec S_ 1 := (fun x v => Host.reduce IntOp.andi x v reducesTo_S4096x50_S_d0_1 h_S_) main_v8 main_c_2
  let main_v10 : IVec S_ 1 := andi main_v3 main_v9
  main_v10
-- ==== Kernel.lean ====
abbrev S4096x50 : Shape := ⟨2, ![4096, 50]⟩
abbrev S100000x128 : Shape := ⟨2, ![100000, 128]⟩
abbrev S4096x1 : Shape := ⟨2, ![4096, 1]⟩
abbrev S4096 : Shape := ⟨1, ![4096]⟩
abbrev S4096x128 : Shape := ⟨2, ![4096, 128]⟩
abbrev S256 : Shape := ⟨1, ![256]⟩
abbrev S256x128 : Shape := ⟨2, ![256, 128]⟩
abbrev S_ : Shape := ⟨0, ![]⟩

abbrev nBuf : Table → Nat
  | .hbm => 5
  | .local .scVector .vmem => 2
  | _ => 0

abbrev bufTy : (tb : Table) → Fin (nBuf tb) → BufTy
  | .hbm, ⟨0, _⟩ => ⟨S4096x50, .i32⟩
  | .hbm, ⟨1, _⟩ => ⟨S100000x128, .f32⟩
  | .hbm, ⟨2, _⟩ => ⟨S4096x1, .i32⟩
  | .hbm, ⟨3, _⟩ => ⟨S4096, .i32⟩
  | .hbm, ⟨4, _⟩ => ⟨S4096x128, .f32⟩
  | .local .scVector .vmem, ⟨0, _⟩ => ⟨S256, .i32⟩
  | .local .scVector .vmem, ⟨1, _⟩ => ⟨S256x128, .f32⟩
  | _, _ => ⟨S4096x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1_scv : Ref sig .scVector := ⟨.hbm, 1, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off2 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S4096x50_S4096x1_0_0 : S4096x50.Slices ![0, 0] S4096x1
  shapeCasts_S4096x1_S4096 : S4096x1.ShapeCasts S4096
  inb_S100000x128_S100000x128_0_0 : ∀ a, (![0, 0] : Fin 2 → Nat) a + S100000x128.size a ≤ S100000x128.size a
  gathers_S100000x128_S256x128 : S100000x128.Gathers 0 S256x128
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S256.size a ≤ S4096.size a
  k0_off2_inb : ∀ i : grid0.Coords, ∀ a, (k0_off2 i) a + S256x128.size a ≤ S4096x128.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S4096x50 : Shape := ⟨2, ![4096, 50]⟩
abbrev S100000x128 : Shape := ⟨2, ![100000, 128]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩
abbrev S4096x1x128 : Shape := ⟨3, ![4096, 1, 128]⟩
abbrev S4096x128 : Shape := ⟨2, ![4096, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x128, .f32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S1, .i32⟩
  | .hbm, ⟨11, _⟩ => ⟨S_, .i32⟩
  | .hbm, ⟨12, _⟩ => ⟨S4096x50x1, .i32⟩
  | .hbm, ⟨13, _⟩ => ⟨S4096x50x1, .i1⟩
  | .hbm, ⟨14, _⟩ => ⟨S1x1x1, .i32⟩
  | .hbm, ⟨15, _⟩ => ⟨S4096x50x1, .i32⟩
  | .hbm, ⟨16, _⟩ => ⟨S4096x50x1, .i1⟩
  | .hbm, ⟨17, _⟩ => ⟨S4096x50x1, .i1⟩
  | .hbm, ⟨18, _⟩ => ⟨S_, .i1⟩
  | .hbm, ⟨19, _⟩ => ⟨S4096x50, .i1⟩
  | .hbm, ⟨20, _⟩ => ⟨S4096x50x128, .f32⟩
  | .hbm, ⟨21, _⟩ => ⟨S4096x50x128, .i1⟩
  | .hbm, ⟨22, _⟩ => ⟨S_, .f32⟩
  | .hbm, ⟨23, _⟩ => ⟨S4096x50x128, .f32⟩
  | .hbm, ⟨24, _⟩ => ⟨S4096x50x128, .f32⟩
  | .hbm, ⟨25, _⟩ => ⟨S4096x1x128, .f32⟩
  | .hbm, ⟨26, _⟩ => ⟨S4096x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x128_0_1 : S4096x50.BroadcastsInDim S4096x50x128 (![0, 1] : Fin 2 → Fin S4096x50x128.rank)
  bcast_S_S4096x50x128 : S_.BroadcastsInDim S4096x50x128 (![] : Fin 0 → Fin S4096x50x128.rank)
  slices_S4096x50x128_S4096x1x128_0_0_0 : S4096x50x128.Slices ![0, 0, 0] S4096x1x128
  shapeCasts_S4096x1x128_S4096x128 : S4096x1x128.ShapeCasts S4096x128
  gather_S100000x128_S4096x50x1_S4096x50x128_2_0_n_n_0_2_1128_wf : GatherDims.WF S100000x128 S4096x50x1 S4096x50x128 [2] [0] [] [0] [] 2 ![1, 128]

variable [Facts₀]

def gather_S100000x128_S4096x50x1_S4096x50x128_2_0_n_n_0_2_1128 : GatherDims S100000x128 S4096x50x1 S4096x50x128 where
  offsetDims := [2]
  collapsedSliceDims := [0]
  operandBatchingDims := []
  startIndicesBatchingDims := []
  startIndexMap := [0]
  indexVectorDim := 2
  sliceSizes := ![1, 128]
  wf := gather_S100000x128_S4096x50x1_S4096x50x128_2_0_n_n_0_2_1128_wf

class Facts : Prop extends Facts₀ where

variable [Facts]
-- ==== Proof.Spec.lean ====
/-
  What both programs compute, as one function of the two argument arrays: row b of the result is the row of the
  table whose number is the FIRST entry of row b of the index array,

      result[b, q] = table[ids[b, 0], q]        (b < 4096, q < 128).

  The index words are 32-bit; under the precondition each lies in 0 … 99999, so read as a natural number it names a
  row of the table. The function below takes the row number modulo the table's height only to be total: no index
  in range is changed by it.
-/
import Idealize.ShloMosaic.PureOps
import Idealize.ShloMosaic.Lib.ValueIdx

noncomputable section

namespace Cert.Proof.Spec

open Idealize.ShloMosaic Idealize.ShloMosaic.ValueIdx

/-- Every entry of the index array, read as a natural number, names a row of the table. -/
def InRange (ids : IVec ⟨2, ![4096, 50]⟩ 32) : Prop := ∀ j, (ids j).toNat < 100000

/-- Row n of the table at column q. -/
abbrev tabIx (n : Nat) (q : Fin 128) : (⟨2, ![100000, 128]⟩ : Shape).Idx :=
  ix2 (⟨n % 100000, Nat.mod_lt _ (by norm_num)⟩ : Fin 100000) q

/-- The first entry of row b of the index array. -/
abbrev firstIx (b : Fin 4096) : (⟨2, ![4096, 50]⟩ : Shape).Idx := ix2 b (0 : Fin 50)

/-- The pooled lookup: result[b, q] = table[ids[b, 0], q]. -/
def lookup {α : Type} (ids : IVec ⟨2, ![4096, 50]⟩ 32) (tab : (⟨2, ![100000, 128]⟩ : Shape).Idx → α) :
    (⟨2, ![4096, 128]⟩ : Shape).Idx → α :=
  fun j => tab (tabIx (ids (firstIx (j 0))).toNat (j 1))

theorem lookup_apply {α : Type} (ids : IVec ⟨2, ![4096, 50]⟩ 32) (tab : (⟨2, ![100000, 128]⟩ : Shape).Idx → α)
    (b : Fin 4096) (q : Fin 128) : lookup ids tab (ix2 b q) = tab (tabIx (ids (firstIx b)).toNat q) := rfl

end Cert.Proof.Spec

end
-- ==== Proof.PreDecode.lean ====
/-
  The precondition, read back. The printed predicate is the conjunction of two reductions by "and" over all
  axes: one says every entry of the table is finite, the other that every entry of the index array lies
  between 0 and 99999 as a signed 32-bit word. Only the second is used here: when the predicate's one word
  is 1, each comparison word under the second reduction is 1, so each index word, read signed, is in
  0 … 99999; read unsigned it is then the same number, below the table's height.
-/
import proofs.«211053_g26998164423141_cont_9to1_407_5_alg».proof.Pre_input_domain
import proofs.«211053_g26998164423141_cont_9to1_407_5_alg».proof.Proof.Gen.Pre_input_domain
import proofs.«211053_g26998164423141_cont_9to1_407_5_alg».proof.Proof.Spec
import Idealize.ShloMosaic.Lib.ReduceAll
import Idealize.ShloMosaic.Lib.ValueIdx

noncomputable section

namespace Cert.Proof.PreDecode

open Idealize.ShloMosaic Idealize.ShloMosaic.ValueIdx

variable {F : FTy → Type} [FloatOps F]

/-- The scalar shape has one index. -/
instance : Subsingleton Cert.Pre_input_domain.S_.Idx := ⟨fun a b => funext fun d => d.elim0⟩

/-- One word: if both of its comparisons with the bounds 0 and 99999 (signed) come out 1, its signed value lies
    between them. -/
theorem word_range (v : BitVec 32)
    (e : IntOp.andi (IntOp.cmpi .sge v 0#32) (IntOp.cmpi .sle v 99999#32) = 1#1) :
    0 ≤ v.toInt ∧ v.toInt ≤ 99999 := by
  obtain ⟨h1, h2⟩ := IntOp.andi_eq_one.1 e
  rw [IntOp.cmpi_sge] at h1
  rw [IntOp.cmpi_sle] at h2
  have z : (0#32 : BitVec 32).toInt = 0 := by decide
  have n : (99999#32 : BitVec 32).toInt = 99999 := by decide
  omega

/-- A 32-bit word whose signed value is in 0 … 99999 has that same value unsigned. -/
theorem toNat_of_signed_range (v : BitVec 32) (h : 0 ≤ v.toInt ∧ v.toInt ≤ 99999) :
    v.toNat < 100000 ∧ v.toInt = (v.toNat : Int) := by
  have hc := BitVec.toInt_eq_toNat_cond v
  have hl := v.isLt
  constructor <;> omega

/-- Under the precondition every index word, read signed, lies in 0 … 99999. -/
theorem signed_range (ids : IVec Cert.Pre_input_domain.S4096x50 32)
    (tab : FVec F Cert.Pre_input_domain.S100000x128 .f32)
    (h : Cert.Pre_input_domain.fn (F := F) ids tab = fun _ => 1#1) :
    ∀ j, 0 ≤ (ids j).toInt ∧ (ids j).toInt ≤ 99999 := by
  intro j
  have e := congrFun h ix0
  dsimp only [Cert.Pre_input_domain.fn] at e
  obtain ⟨-, e9⟩ := IntOp.andi_eq_one.1 e
  have e8 := Host.reduce_andi_all _ _ _ _ _ e9 j
  exact word_range (ids j) e8

/-- Under the precondition every index word, read as a natural number, names a row of the table. -/
theorem inRange_of_pre (ids : IVec Cert.Pre_input_domain.S4096x50 32)
    (tab : FVec F Cert.Pre_input_domain.S100000x128 .f32)
    (h : Cert.Pre_input_domain.fn (F := F) ids tab = fun _ => 1#1) : Cert.Proof.Spec.InRange ids :=
  fun j => (toNat_of_signed_range (ids j) (signed_range ids tab h j)).1

end Cert.Proof.PreDecode

end
-- ==== Proof.KSetup.lean ====
/-
  The embedding lookup's kernel as the launch theorem sees it, and the vocabulary of its proof: the arrays (the index
  array, the table, the index array's first column and that column as a list, the result), the sixteen blocks of 256
  list entries and of 256 result rows the tasks take, the sixteenth shares of the table, what the handshakes carry,
  and a task's own cells and scratch buffers. The result is specified by the LOOKUP of Spec.lean.
-/
import proofs.«211053_g26998164423141_cont_9to1_407_5_alg».proof.Proof.Gen.Kernel
import proofs.«211053_g26998164423141_cont_9to1_407_5_alg».proof.Proof.Gen.Kernel.Skeleton
import proofs.«211053_g26998164423141_cont_9to1_407_5_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The index array, the table, the index array's first column, that column as a list, the result. -/
abbrev aLoc (d : Dev nD) : Loc nD τ sig := (SparseCore.T d).loc main_arg0
abbrev xLoc (d : Dev nD) : Loc nD τ sig := (SparseCore.T d).loc main_arg1
abbrev cLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

local notation "iV" => (Memref.whole Cert.Kernel.main_v1_scv : Memref Cert.Kernel.sig Kind.scVector Space.hbm Cert.Kernel.S4096 EltTy.i32)
local notation "xV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S256 EltTy.i32)
local notation "rV" => (Memref.whole Cert.Kernel.cc0_scratch1 : Memref Cert.Kernel.sig Kind.scVector Space.vmem Cert.Kernel.S256x128 EltTy.f32)

/-- Sixteen blocks of 256 list entries; sixteen blocks of 256 result rows. -/
theorem idiv : 16 ∣ S4096.size 0 := ⟨256, rfl⟩
theorem odiv : 16 ∣ S4096x128.size 0 := ⟨256, rfl⟩
abbrev irow (i : Fin 16) : Rect S4096 := Rect.part (s := S4096) (a₀ := 0) idiv i
abbrev orow (i : Fin 16) : Rect S4096x128 := Rect.part (s := S4096x128) (a₀ := 0) odiv i
abbrev iRowSet (i : Fin 16) : Finset S4096.Idx := ((iV).view.slice (irow i)).set
abbrev oRowSet (i : Fin 16) : Finset S4096x128.Idx := ((oV).view.slice (orow i)).set

/-- Task i's share of the table: the full share cut in sixteen. -/
abbrev xq (i : Fin 16) : PosShare TreeShare := pieceOf fullShare 16 (by decide) i

/-- The index list the two host operations make of the index array: its first column, as a list. -/
def idxList (ids : IVec S4096x50 32) : IVec S4096 32 :=
  shapeCast S4096 (extractStridedSlice S4096x1 ![0, 0] ids slices_S4096x50_S4096x1_0_0) shapeCasts_S4096x1_S4096

variable [FloatOps F]

/-- What the result holds at the end: the lookup of the two argument arrays as the launch found them. -/
def OUT (d : Dev nD) : Buf (Elt F) (oLoc d) := Cert.Proof.Spec.lookup (m (aLoc d)) (m (xLoc d))
/-- What the list holds when the call starts. -/
def IDX (d : Dev nD) : Buf (Elt F) (iLoc d) := idxList (m (aLoc d))

/-! ## What the handshakes carry -/

abbrev iPts (d : Dev nD) : sProp 𝕄 := iLoc d ↦{fullShare} IDX m d
abbrev xPts (d : Dev nD) : sProp 𝕄 := xLoc d ↦{fullShare} m (xLoc d)
abbrev oPts (d : Dev nD) (f : Buf (Elt F) (oLoc d)) : sProp 𝕄 := oLoc d ↦{fullShare} f
abbrev iRowPts (d : Dev nD) (i : Fin 16) : sProp 𝕄 := iLoc d ↦[iRowSet i]{fullShare} IDX m d
abbrev xShPts (d : Dev nD) (i : Fin 16) : sProp 𝕄 := xLoc d ↦{xq i} m (xLoc d)
abbrev oRowPts (d : Dev nD) (i : Fin 16) (f : Buf (Elt F) (oLoc d)) : sProp 𝕄 := oLoc d ↦[oRowSet i]{fullShare} f

/-- The one call takes the list, the table and the result whole; each task its block of the list, its share of the
    table and its block of the result, and brings them back, the result's block at the lookup. -/
def P : (K (F := F)).Pay (nD := nD) (Val := Elt F) (Name := ℕ) (U := UU) where
  st := fun q d _ => match q with | 0 => iprop(iPts m d ∗ xPts m d ∗ oPts d (m (oLoc d)))
  dn := fun q d _ => match q with | 0 => iprop(iPts m d ∗ xPts m d ∗ oPts d (OUT m d))
  go := fun q d _ i => match q with
    | 0 => iprop(iRowPts m d (Fin.cast nSub_zero i) ∗ xShPts m d (Fin.cast nSub_zero i) ∗ oRowPts d (Fin.cast nSub_zero i) (m (oLoc d)))
  td := fun q d _ i => match q with
    | 0 => iprop(iRowPts m d (Fin.cast nSub_zero i) ∗ xShPts m d (Fin.cast nSub_zero i) ∗ oRowPts d (Fin.cast nSub_zero i) (OUT m d))
  x := fun _ _ => iprop(emp)

instance P_storable : (P (F := F) m).IsStorable where
  st q d _ := match q with
    | 0 => (inferInstance : BI.Storable (upEmb : UEmb _ 𝕄) iprop(iPts m d ∗ xPts m d ∗ oPts d (m (oLoc d))))
  dn q d _ := match q with
    | 0 => (inferInstance : BI.Storable (upEmb : UEmb _ 𝕄) iprop(iPts m d ∗ xPts m d ∗ oPts d (OUT m d)))
  go q d _ i := match q with
    | 0 => (inferInstance : BI.Storable (upEmb : UEmb _ 𝕄)
      iprop(iRowPts m d (Fin.cast nSub_zero i) ∗ xShPts m d (Fin.cast nSub_zero i) ∗ oRowPts d (Fin.cast nSub_zero i) (m (oLoc d))))
  td q d _ i := match q with
    | 0 => (inferInstance : BI.Storable (upEmb : UEmb _ 𝕄)
      iprop(iRowPts m d (Fin.cast nSub_zero i) ∗ xShPts m d (Fin.cast nSub_zero i) ∗ oRowPts d (Fin.cast nSub_zero i) (OUT m d)))

/-- What the proof asks of the launch memory: every entry of the index array names a row of the table. -/
def PreOK : Prop := ∀ d : Dev nD, Cert.Proof.Spec.InRange (m (aLoc d))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

abbrev irowK (L : grid0.Coords) : Rect S4096 := Rect.unit (s := S4096) (k0_off1 L) S256.size (k0_off1_inb L)
abbrev orowK (L : grid0.Coords) : Rect S4096x128 := Rect.unit (s := S4096x128) (k0_off2 L) S256x128.size (k0_off2_inb L)
/-- Block L 1 of the list and of the result, and all of the table, as the task addresses them. -/
abbrev iRowK (L : grid0.Coords) : Memref sig .scVector .hbm S256 .i32 := (iV).slice (irowK L) (fun _ => rfl)
abbrev oRowK (L : grid0.Coords) : Memref sig .scVector .hbm S256x128 .f32 := (oV).slice (orowK L) (fun _ => rfl)
abbrev xAllK : Memref sig .scVector .hbm S100000x128 .f32 := (xV).slice (Rect.unit (s := S100000x128) ![0, 0] S100000x128.size inb_S100000x128_S100000x128_0_0) (fun _ => rfl)

omit [FloatOps F] in
theorem grid_zero (L : grid0.Coords) : (L 0).val = 0 := by have := (L 0).isLt; change (L 0).val < 1 at this; omega

omit [FloatOps F] in
theorem irowK_eq : irowK L = irow (jL L) := by
  unfold irowK irow Rect.part Rect.block
  congr 1 <;> funext a
  · rw [k0_off1_eq]
    match a with
    | 0 => simp [Shape.partIx, Shape.partSize, grid_zero L] <;> omega
  · match a with
    | 0 => simp [Shape.partSize]
omit [FloatOps F] in
theorem orowK_eq : orowK L = orow (jL L) := by
  unfold orowK orow Rect.part Rect.block
  congr 1 <;> funext a
  · rw [k0_off2_eq]
    match a with
    | 0 => simp [Shape.partIx, Shape.partSize, grid_zero L] <;> omega
    | 1 => simp [Shape.partIx, Shape.partSize]
  · match a with
    | 0 => simp [Shape.partSize]
    | 1 => simp [Shape.partSize]

omit [FloatOps F] in
theorem set_iRowK : (iRowK L).view.set = iRowSet (jL L) := by
  show ((iV).view.slice (irowK L)).set = ((iV).view.slice (irow (jL L))).set
  rw [irowK_eq]
omit [FloatOps F] in
theorem set_oRowK : (oRowK L).view.set = oRowSet (jL L) := by
  show ((oV).view.slice (orowK L)).set = ((oV).view.slice (orow (jL L))).set
  rw [orowK_eq]

omit [FloatOps F] in
theorem pts_iRowK (f : Buf (Elt F) (iLoc d)) :
    ((iRowK L).view.loc (V d (cV L) (jV L)) ↦[(iRowK L).view.set]{fullShare} f : sProp 𝕄) = iLoc d ↦[iRowSet (jL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (jL L)]{fullShare} f := by
  rw [set_oRowK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The three completion cells of a task: the gather's, the list fetch's, the write-out's. -/
abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- An entry of the index list is an entry of the index array (its first column), so it names a row of the table. -/
theorem idxList_lt (hpre : PreOK m) (j : S4096.Idx) : (IDX m d j).toNat < 100000 := hpre d _

/-- The words the stream reads are in range: what the list fetch landed in the index scratch is block L 1 of the
    list. -/
theorem inb_of_pre (hpre : PreOK m) (fs : Buf (Elt F) ((V d (cV L) (jV L)).loc cc0_scratch0)) (pay : S256.Idx → Elt F .i32)
    (hpay : pay = (iRowK L).view.read (Elt F) (IDX m d)) :
    ∀ x, ((sV).view.read (Elt F) (View.write (Elt F) (sV).view fs pay Finset.univ) x).toNat < S100000x128.size gathers_S100000x128_S256x128.axis := by
  subst hpay; intro x
  rw [View.write_whole_univ]
  simp only [Memref.view_whole, View.read_whole]
  rw [show ∀ j, (iRowK L).view.read (Elt F) (IDX m d) j = IDX m d ((iRowK L).view.emb j) from fun j => (View.read_apply _ _).trans (cast_eq _ _)]
  exact idxList_lt m d hpre _

end Tile

end Cert.Proof.KRun

end
-- ==== Proof.KValue.lean ====
/-
  The value a task leaves: its block of the result holds the lookup. Row k of the row scratch is the table's row whose
  number is entry k of the fetched block of the list — entry 256·(L 1) + k of the list, which is the first entry of row
  256·(L 1) + k of the index array — and the write-out puts row k of the row scratch at row 256·(L 1) + k of the result.
-/
import proofs.«211053_g26998164423141_cont_9to1_407_5_alg».proof.Proof.KSetup
import Idealize.ShloMosaic.Lib.Pipeline.Value

noncomputable section

namespace Cert.Proof.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_v1_scv : Memref Cert.Kernel.sig Kind.scVector Space.hbm Cert.Kernel.S4096 EltTy.i32)
local notation "xV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S256 EltTy.i32)
local notation "rV" => (Memref.whole Cert.Kernel.cc0_scratch1 : Memref Cert.Kernel.sig Kind.scVector Space.vmem Cert.Kernel.S256x128 EltTy.f32)

variable [FloatOps F]

section Tile

variable (d : Dev nD) (L : grid0.Coords)

omit [FloatOps F] in
/-- An entry of the list is the first entry of the same row of the index array. -/
theorem idxList_apply (ids : IVec S4096x50 32) (r : Fin 4096) : idxList ids (ix1 r) = ids (ix2 r (0 : Fin 50)) := by
  unfold idxList
  rw [shapeCast_apply _ _ (ix1 r) (ix2 r (0 : Fin 1)) (by
    rw [Shape.rowMajor_val_two, Shape.rowMajor_val_one]
    show r.val * 1 + (0 : Fin 1).val = r.val
    simp)]
  unfold extractStridedSlice
  refine congrArg ids (funext fun a => Fin.ext ?_)
  match a with
  | ⟨0, _⟩ => simp
  | ⟨1, _⟩ => simp

omit [FloatOps F] in
/-- The one coordinate of the index of a 256-entry list at row-major position k is k. -/
theorem rowMajor_symm_256 (k : Fin S256.numel) : ((S256.rowMajor.symm k) 0).val = k.val := by
  have h := Shape.rowMajor_val_one (S256.rowMajor.symm k)
  rw [Equiv.apply_symm_apply] at h
  exact h.symm

omit [FloatOps F] in
/-- The task addresses the whole table: an index of its view is the table's own. -/
theorem xAllK_emb (z : S100000x128.Idx) : (xAllK).view.emb z = z := by
  funext a; apply Fin.ext
  simp only [Memref.view_slice, View.emb_slice, Function.Embedding.trans_apply, View.emb_whole, Function.Embedding.refl_apply, Rect.emb_apply]
  show (![0, 0] : Fin 2 → Nat) a + 1 * (z a).val = (z a).val
  match a with
  | ⟨0, _⟩ => simp
  | ⟨1, _⟩ => simp

omit [FloatOps F] in
/-- Row k of the task's block of the result is row 256·(L 1) + k of the result; the columns are the result's. -/
theorem oRowK_emb0 (y : S256x128.Idx) : (((oRowK L).view.emb y) 0).val = 256 * (L 1).val + (y 0).val := by
  simp only [Memref.view_slice, View.emb_slice, Function.Embedding.trans_apply, View.emb_whole, Function.Embedding.refl_apply, Rect.emb_apply]
  show k0_off2 L 0 + 1 * (y 0).val = _
  rw [k0_off2_eq]
  have := grid_zero L
  simp [this]
omit [FloatOps F] in
theorem oRowK_emb1 (y : S256x128.Idx) : (((oRowK L).view.emb y) 1).val = (y 1).val := by
  simp only [Memref.view_slice, View.emb_slice, Function.Embedding.trans_apply, View.emb_whole, Function.Embedding.refl_apply, Rect.emb_apply]
  show k0_off2 L 1 + 1 * (y 1).val = _
  rw [k0_off2_eq]
  simp
omit [FloatOps F] in
/-- Entry k of the task's block of the list is entry 256·(L 1) + k of the list. -/
theorem iRowK_emb0 (z : S256.Idx) : (((iRowK L).view.emb z) 0).val = 256 * (L 1).val + (z 0).val := by
  simp only [Memref.view_slice, View.emb_slice, Function.Embedding.trans_apply, View.emb_whole, Function.Embedding.refl_apply, Rect.emb_apply]
  show k0_off1 L 0 + 1 * (z 0).val = _
  rw [k0_off1_eq]
  have := grid_zero L
  simp [this]

omit [FloatOps F] in
/-- The gather's source index: on the row axis the row the list names, on the column axis the destination's column. -/
theorem gidx0 (r : Fin (S256x128.size gathers_S100000x128_S256x128.axis') → Fin (S100000x128.size gathers_S100000x128_S256x128.axis)) (y : S256x128.Idx) :
    ((gathers_S100000x128_S256x128.idx r y) 0).val = (r (y 0)).val := by
  unfold Shape.Gathers.idx
  split
  · rfl
  · rename_i h; exact absurd rfl h
omit [FloatOps F] in
theorem gidx1 (r : Fin (S256x128.size gathers_S100000x128_S256x128.axis') → Fin (S100000x128.size gathers_S100000x128_S256x128.axis)) (y : S256x128.Idx) :
    ((gathers_S100000x128_S256x128.idx r y) 1).val = (y 1).val := by
  unfold Shape.Gathers.idx
  rw [dif_neg (by decide)]
  rfl

omit [FloatOps F] in
/-- Row 256·(L 1) + k, for k below 256: a row of the result, and an entry of the list. -/
def rowNo (L : grid0.Coords) (k : Fin 256) : Fin 4096 :=
  ⟨256 * (L 1).val + k.val, by have h1 : (L 1).val < 16 := (L 1).isLt; have h2 := k.isLt; omega⟩

/-- The row the stream fetches for row k of the row scratch: the first entry of row 256·(L 1) + k of the index array. -/
theorem fetched_row (fs : Buf (Elt F) ((V d (cV L) (jV L)).loc cc0_scratch0))
    (hn : S256.numel = S256x128.size gathers_S100000x128_S256x128.axis')
    (hin : ∀ x, ((sV).view.read (Elt F) (View.write (Elt F) (sV).view fs (View.read (Elt F) (iRowK L).view (IDX m d)) Finset.univ) x).toNat
      < S100000x128.size gathers_S100000x128_S256x128.axis)
    (k : Fin (S256x128.size gathers_S100000x128_S256x128.axis')) (k' : Fin 256) (hk : k.val = k'.val) :
    (SparseCore.rows (View.read (Elt F) (sV).view (View.write (Elt F) (sV).view fs (View.read (Elt F) (iRowK L).view (IDX m d)) Finset.univ)) hn hin k).val
      = (m (aLoc d) (ix2 (rowNo L k') (0 : Fin 50))).toNat := by
  show ((View.read (Elt F) (sV).view (View.write (Elt F) (sV).view fs (View.read (Elt F) (iRowK L).view (IDX m d)) Finset.univ))
      (S256.rowMajor.symm (k.cast hn.symm))).toNat = _
  rw [View.read_write_univ]
  rw [show ∀ z, View.read (Elt F) (iRowK L).view (IDX m d) z = IDX m d ((iRowK L).view.emb z) from
    fun z => (View.read_apply _ _).trans (cast_eq _ _)]
  have hW : (iRowK L).view.emb (S256.rowMajor.symm (k.cast hn.symm)) = ix1 (rowNo L k') := by
    funext a
    match a with
    | ⟨0, _⟩ =>
      apply Fin.ext
      refine (iRowK_emb0 L _).trans ?_
      rw [rowMajor_symm_256]
      show 256 * (L 1).val + k.val = 256 * (L 1).val + k'.val
      rw [hk]
  rw [hW]
  unfold IDX
  rw [idxList_apply]

/-- What the task leaves in its block of the result is the lookup there: row k of the row scratch is the table's row
    whose number is entry k of the fetched block of the list, that is entry 256·(L 1) + k of the list, the first entry
    of row 256·(L 1) + k of the index array; and the write-out puts row k of the row scratch at row 256·(L 1) + k of the
    result. -/
theorem out_block_value (hpre : PreOK m) (f0 : Buf (Elt F) (oLoc d))
    (fs : Buf (Elt F) ((V d (cV L) (jV L)).loc cc0_scratch0)) (fr : Buf (Elt F) ((V d (cV L) (jV L)).loc cc0_scratch1))
    (hn : S256.numel = S256x128.size gathers_S100000x128_S256x128.axis')
    (hin : ∀ x, ((sV).view.read (Elt F) (View.write (Elt F) (sV).view fs (View.read (Elt F) (iRowK L).view (IDX m d)) Finset.univ) x).toNat
      < S100000x128.size gathers_S100000x128_S256x128.axis) :
    ∀ i ∈ (oRowK L).view.set,
      (oRowK L).view.writes (Elt F) f0 [⟨Rect.whole S256x128,
        (rV).view.read (Elt F) (View.write (Elt F) (rV).view fr
          (SparseCore.gatherPayload gathers_S100000x128_S256x128 (View.read (Elt F) (xAllK).view (m (xLoc d)))
            (SparseCore.rows (View.read (Elt F) (sV).view (View.write (Elt F) (sV).view fs (View.read (Elt F) (iRowK L).view (IDX m d)) Finset.univ)) hn hin))
          Finset.univ)⟩] i = OUT m d i := by
  intro i hi
  obtain ⟨y, rfl⟩ := View.exists_emb_of_mem_set _ hi
  have h1 : ∀ g : Buf (Elt F) (oLoc d), g ((oRowK L).view.emb y) = (oRowK L).view.read (Elt F) g y :=
    fun g => ((View.read_apply _ _).trans (cast_eq _ _)).symm
  refine (h1 _).trans ?_
  rw [View.read_writes_whole, View.read_write_univ]
  unfold SparseCore.gatherPayload
  rw [show ∀ z, View.read (Elt F) (xAllK).view (m (xLoc d)) z = m (xLoc d) ((xAllK).view.emb z) from
    fun z => (View.read_apply _ _).trans (cast_eq _ _)]
  show _ = Cert.Proof.Spec.lookup (m (aLoc d)) (m (xLoc d)) ((oRowK L).view.emb y)
  unfold Cert.Proof.Spec.lookup
  rw [xAllK_emb]
  -- the row of the index array this element of the result reads
  have hy0 : (y 0).val < 256 := (y 0).isLt
  have hrow : ((oRowK L).view.emb y) 0 = rowNo L ⟨(y 0).val, hy0⟩ := Fin.ext (oRowK_emb0 L y)
  have hlt := hpre d (ix2 (rowNo L ⟨(y 0).val, hy0⟩) (0 : Fin 50))
  refine congrArg (m (xLoc d)) (funext fun a => Fin.ext ?_)
  match a with
  | ⟨0, _⟩ =>
    refine (gidx0 _ y).trans ?_
    rw [fetched_row m d L fs hn hin (y 0) ⟨(y 0).val, hy0⟩ rfl, hrow]
    show _ = (m (aLoc d) (ix2 (rowNo L ⟨(y 0).val, hy0⟩) (0 : Fin 50))).toNat % 100000
    rw [Nat.mod_eq_of_lt hlt]
  | ⟨1, _⟩ =>
    refine (gidx1 _ y).trans ?_
    exact (oRowK_emb1 L y).symm

end Tile

end Cert.Proof.KRun

end
-- ==== Proof.KTile.lean ====
/-
  One tile's task of the embedding lookup, at a symbolic place: fetch a block of 256 entries of the index list into the
  index scratch, gather those 256 rows of the table into the row scratch by the indirect stream, copy the row scratch
  out to the task's 256 rows of the result. The task runs to its end with no fault and no wait unanswered, gives back
  its block of the list and its share of the table unchanged, and leaves its block of the result at the lookup.
-/
import proofs.«211053_g26998164423141_cont_9to1_407_5_alg».proof.Proof.KValue

noncomputable section

namespace Cert.Proof.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_v1_scv : Memref Cert.Kernel.sig Kind.scVector Space.hbm Cert.Kernel.S4096 EltTy.i32)
local notation "xV" => (Memref.whole Cert.Kernel.main_arg1_scv : Memref Cert.Kernel.sig Kind.scVector Space.hbm Cert.Kernel.S100000x128 EltTy.f32)
local notation "oV" => (Memref.whole Cert.Kernel.main_v2_scv : Memref Cert.Kernel.sig Kind.scVector Space.hbm Cert.Kernel.S4096x128 EltTy.f32)
local notation "sV" => (Memref.whole Cert.Kernel.cc0_scratch0 : Memref Cert.Kernel.sig Kind.scVector Space.vmem Cert.Kernel.S256 EltTy.i32)
local notation "rV" => (Memref.whole Cert.Kernel.cc0_scratch1 : Memref Cert.Kernel.sig Kind.scVector Space.vmem Cert.Kernel.S256x128 EltTy.f32)

variable [FloatOps F]

section Tile

variable (d : Dev nD) (L : grid0.Coords)

set_option maxHeartbeats 4000000 in
/-- The task on vector subcore (L 0, L 1) of device d. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iRowPts m d (jL L) ∗ xShPts m d (jL L) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L xV (Memref.isWhole_whole _) iV (Memref.isWhole_whole _) oV (Memref.isWhole_whole _)
            sV (Memref.isWhole_whole _) rV (Memref.isWhole_whole _) cc0_scratch2 cc0_scoped0 cc0_scoped1)
          fun _ => iprop((iRowPts m d (jL L) ∗ xShPts m d (jL L) ∗ oRowPts d (jL L) (OUT m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_eq_skeleton]; unfold cc0__sc_gather_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  -- the gather: the stream over the fetched block of the list, every word of it a row of the table
  ihave Hxs := (pointsTo_split_subset (q := xq (jL L)) (f := m (xLoc d)) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 m d L) Finset.univ : sProp 𝕄)
      = (sV).view.loc (V d (cV L) (jV L)) ↦[(sV).view.set]{fullShare} View.write (Elt F) (sV).view fs (tile_body.sl.dma0 m d L) Finset.univ
      by rw [hss])) $$ Hs'
  have hN : ∀ h : S100000x128.Gathers 0 S256x128, ∑ j, ((rV).slice (S256x128.rowRect h.axis' j) (S256x128.stride_rowRect h.axis' j)).view.dmaCredit
      = (rV).view.dmaCredit := by decide
  iapply (SparseCore.wp_indirectGatherLocal countersEmb 𝒱₀ (V d (cV L) (jV L)) none (hg := gathers_S100000x128_S256x128) (default : HIx 1)
      (rV).view.dmaCredit (hN _) (by decide) (inb_of_pre m d L hpre fs _ rfl)) $$ [Hxs Hr'' Hs'' HsemG]
  · isplitl [Hxs]; · iexact Hxs
    isplitl [Hr'']; · iexact Hr''
    isplitl [Hs'']; · iexact Hs''
    iexact HsemG
  iintro Hfl
  sl_exec
  -- its wait: the row scratch written with the gathered rows; the table's share and the list's scratch back
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemG, HO⟩
  ihave Hx' := (pointsTo_split_subset (q := xq (jL L)) (f := m (xLoc d)) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  -- the block of the result holds the lookup
  have hval : ∀ i ∈ (oRowK L).view.set,
      (oRowK L).view.writes (Elt F) (m (oLoc d)) [⟨Rect.whole S256x128, tile_body.sl.dma0_1 m d L hpre fs fr⟩] i = OUT m d i :=
    out_block_value m d L hpre (m (oLoc d)) fs fr rfl (inb_of_pre m d L hpre fs _ rfl)
  ihave Ho2 := (Entails.of_eq (pointsTo_congr (ℓ := (oRowK L).view.loc (V d (cV L) (jV L))) (I := (oRowK L).view.set) (q := fullShare) hval)) $$ Ho'
  isplitl [Hi' Hx' Ho2]
  · isplitl [Hi']; · iapply (Entails.of_eq (pts_iRowK (F := F) d L _)); iexact Hi'
    isplitl [Hx']; · iexact Hx'
    iapply (Entails.of_eq (pts_oRowK (F := F) d L _)); iexact Ho2
  isplitl [Hs3 Hr3 Hbufs]
  · isplitl [Hs3]; · iexists _; iexact Hs3
    isplitl [Hr3]; · iexists _; iexact Hr3
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

end Cert.Proof.KRun

end
-- ==== Proof.KLaunch.lean ====
/-
  The launch of the embedding lookup and its run: how the call's operands — the index list, the table, the result
  array — split into the sixteen tasks' (a block of 256 list entries, a sixteenth share of the table, a block of 256
  result rows) and join again; @main on the TensorCore (the two host operations that make the list of the index
  array's first column, then the call); and the run of the whole family of threads: every weakly fair execution
  ends, nothing faulting, with the result array at the LOOKUP of the two argument arrays and those unchanged.
-/
import proofs.«211053_g26998164423141_cont_9to1_407_5_alg».proof.Proof.KTile

noncomputable section

namespace Cert.Proof.KRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.Kernel.main_v1_scv : Memref Cert.Kernel.sig Kind.scVector Space.hbm Cert.Kernel.S4096 EltTy.i32)
local notation "oV" => (Memref.whole Cert.Kernel.main_v2_scv : Memref Cert.Kernel.sig Kind.scVector Space.hbm Cert.Kernel.S4096x128 EltTy.f32)

/-! ## The blocks split and join; the shares of the table -/

theorem iRowSet_eq (i : Fin 16) : iRowSet i = (irow i).set := by
  show ((View.whole (main_v1_scv : Ref sig .scVector)).slice (irow i)).set = _
  rw [View.set_slice]; exact Finset.map_refl
theorem oRowSet_eq (i : Fin 16) : oRowSet i = (orow i).set := by
  show ((View.whole (main_v2_scv : Ref sig .scVector)).slice (orow i)).set = _
  rw [View.set_slice]; exact Finset.map_refl
theorem irows_disjoint : ∀ i ∈ (Finset.univ : Finset (Fin 16)), ∀ j ∈ (Finset.univ : Finset (Fin 16)), i ≠ j → Disjoint (iRowSet i) (iRowSet j) :=
  fun i _ j _ h => by rw [iRowSet_eq, iRowSet_eq]; exact Rect.part_disjoint idiv h
theorem orows_disjoint : ∀ i ∈ (Finset.univ : Finset (Fin 16)), ∀ j ∈ (Finset.univ : Finset (Fin 16)), i ≠ j → Disjoint (oRowSet i) (oRowSet j) :=
  fun i _ j _ h => by rw [oRowSet_eq, oRowSet_eq]; exact Rect.part_disjoint odiv h
theorem irows_cover : (Finset.univ : Finset (Fin 16)).biUnion iRowSet = Finset.univ :=
  (Finset.biUnion_congr rfl fun i _ => iRowSet_eq i).trans (Rect.biUnion_part idiv)
theorem orows_cover : (Finset.univ : Finset (Fin 16)).biUnion oRowSet = Finset.univ :=
  (Finset.biUnion_congr rfl fun i _ => oRowSet_eq i).trans (Rect.biUnion_part odiv)

theorem iPts_rows (d : Dev nD) (f : Buf (Elt F) (iLoc d)) :
    (iLoc d ↦{fullShare} f : sProp 𝕄) = bigSep Finset.univ fun i : Fin 16 => iLoc d ↦[iRowSet i]{fullShare} f := by
  rw [← pointsTo_biUnion Finset.univ (ℓ := iLoc d) iRowSet irows_disjoint, irows_cover]; try rfl
theorem oPts_rows (d : Dev nD) (f : Buf (Elt F) (oLoc d)) :
    (oLoc d ↦{fullShare} f : sProp 𝕄) = bigSep Finset.univ fun i : Fin 16 => oLoc d ↦[oRowSet i]{fullShare} f := by
  rw [← pointsTo_biUnion Finset.univ (ℓ := oLoc d) oRowSet orows_disjoint, orows_cover]; try rfl
theorem xPts_shares (d : Dev nD) (f : Buf (Elt F) (xLoc d)) :
    (xLoc d ↦{fullShare} f : sProp 𝕄) = bigSep Finset.univ fun i : Fin 16 => xLoc d ↦{xq i} f :=
  pointsTo_piecesOf Finset.univ f (by decide) fullShare

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

/-- The call's operands are the sixteen tasks'; the tasks' results are the call's: each block of the result comes
    back at the lookup, so the blocks together are the result array at the lookup. -/
theorem vecSplit : (K (F := F)).VecSplit' (P m) 0 := by
  intro d c
  show iprop(iPts m d ∗ xPts m d ∗ oPts d (m (oLoc d))) ⊢ |={Set.univ}=> iprop(
      (bigSep Finset.univ fun i : Fin ((K (F := F)).nSub 0) =>
        iprop(iRowPts m d (Fin.cast nSub_zero i) ∗ xShPts m d (Fin.cast nSub_zero i) ∗ oRowPts d (Fin.cast nSub_zero i) (m (oLoc d))))
      ∗ ((bigSep Finset.univ fun i : Fin ((K (F := F)).nSub 0) =>
          iprop(iRowPts m d (Fin.cast nSub_zero i) ∗ xShPts m d (Fin.cast nSub_zero i) ∗ oRowPts d (Fin.cast nSub_zero i) (OUT m d)))
          -∗ iprop(iPts m d ∗ xPts m d ∗ oPts d (OUT m d))))
  rw [bigSep_tasks (F := F) (fun i => iprop(iRowPts m d i ∗ xShPts m d i ∗ oRowPts d i (m (oLoc d)))),
    bigSep_tasks (F := F) (fun i => iprop(iRowPts m d i ∗ xShPts m d i ∗ oRowPts d i (OUT m d))), bigSep_sep', bigSep_sep', bigSep_sep', bigSep_sep']
  unfold iPts xPts oPts iRowPts xShPts oRowPts
  rw [iPts_rows, xPts_shares, oPts_rows d (m (oLoc d)), oPts_rows d (OUT m d)]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev x' : DevRef τ sig := Proc.devRef .tc (main_arg1 : Ref sig .tc)
abbrev c' : DevRef τ sig := Proc.devRef .tc (main_v0 : Ref sig .tc)
abbrev i' : DevRef τ sig := Proc.devRef .tc (main_v1 : Ref sig .tc)
abbrev o' : DevRef τ sig := Proc.devRef .tc (main_v2 : Ref sig .tc)
/-- The first column of the index array; that column as a list. -/
abbrev opSl : HloOp τ sig (Elt F) := StableHlo.unary main_arg0 main_v0 ((extractStridedSlice S4096x1 ![0, 0] · slices_S4096x50_S4096x1_0_0) : (⟨S4096x50, .i32⟩ : BufTy).Contents (Elt F) → (⟨S4096x1, .i32⟩ : BufTy).Contents (Elt F))
abbrev opRs : HloOp τ sig (Elt F) := StableHlo.reshape main_v0 main_v1 rfl shapeCasts_S4096x1_S4096

/-- The TensorCore's arrays, all unscoped. -/
abbrev S5 : Finset (DevRef τ sig) := {a', x', c', i', o'}

omit [FloatOps F] in
theorem held_S5 (d : Dev nD) (W : Valuation τ sig (Elt F)) :
    (held (T d) S5 W : sProp 𝕄)
      = iprop((aLoc d ↦{fullShare} W a') ∗ (xLoc d ↦{fullShare} W x') ∗ (cLoc d ↦{fullShare} W c')
          ∗ (iLoc d ↦{fullShare} W i') ∗ oLoc d ↦{fullShare} W o') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_arg1) ∗ (cLoc d ↦{fullShare} W main_v0)
          ∗ (iLoc d ↦{fullShare} W main_v1) ∗ oLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation, and the valuation before the call: the two operations' results. -/
def V0 (d : Dev nD) : Valuation τ sig (Elt F) := fun b => m (d, b)
def V2 (d : Dev nD) : Valuation τ sig (Elt F) := (opRs (F := F)).result ((opSl (F := F)).result (V0 m d))

theorem unscoped_held (d : Dev nD) : (unscopedBufs d (fun b => m ((SparseCore.T d).loc b)) : sProp 𝕄) = held (T d) S5 (V0 m d) := by
  rw [unscopedBufs_eq, held_S5]; rfl

theorem V2_a (d : Dev nD) : V2 m d a' = m (aLoc d) := by
  unfold V2
  rw [(opRs (F := F)).result_of_not_mem _ (show a' ∉ ({i'} : Finset (DevRef τ sig)) by decide),
    (opSl (F := F)).result_of_not_mem _ (show a' ∉ ({c'} : Finset (DevRef τ sig)) by decide)]
  rfl
theorem V2_x (d : Dev nD) : V2 m d x' = m (xLoc d) := by
  unfold V2
  rw [(opRs (F := F)).result_of_not_mem _ (show x' ∉ ({i'} : Finset (DevRef τ sig)) by decide),
    (opSl (F := F)).result_of_not_mem _ (show x' ∉ ({c'} : Finset (DevRef τ sig)) by decide)]
  rfl
theorem V2_o (d : Dev nD) : V2 m d o' = m (oLoc d) := by
  unfold V2
  rw [(opRs (F := F)).result_of_not_mem _ (show o' ∉ ({i'} : Finset (DevRef τ sig)) by decide),
    (opSl (F := F)).result_of_not_mem _ (show o' ∉ ({c'} : Finset (DevRef τ sig)) by decide)]
  rfl
/-- The list, when the call starts, is the first column of the index array as the launch found it. -/
theorem V2_i (d : Dev nD) : V2 m d i' = IDX m d := by
  unfold V2
  rw [StableHlo.reshape_result main_v0 main_v1 rfl shapeCasts_S4096x1_S4096,
    StableHlo.unary_result main_arg0 main_v0]
  rfl

theorem held_V2 (d : Dev nD) :
    (held (T d) S5 ((opRs (F := F)).result ((opSl (F := F)).result (V0 m d))) : sProp 𝕄)
      = iprop((aLoc d ↦{fullShare} m (aLoc d)) ∗ xPts m d ∗ (cLoc d ↦{fullShare} V2 m d c') ∗ iPts m d ∗ oPts d (m (oLoc d))) := by
  show held (SparseCore.T d) S5 (V2 m d) = _
  rw [held_S5, V2_a, V2_x, V2_i, V2_o]

theorem st0_eq (d : Dev nD) : (bigSep Finset.univ fun c : Fin ((K (F := F)).nCore 0) => (P m).st 0 d c) = iprop(iPts m d ∗ xPts m d ∗ oPts d (m (oLoc d))) :=
  bigSep_univ_of_subsingleton (0 : Fin 1)
theorem dn0_eq (d : Dev nD) : (bigSep Finset.univ fun c : Fin ((K (F := F)).nCore 0) => (P m).dn 0 d c) = iprop(iPts m d ∗ xPts m d ∗ oPts d (OUT m d)) :=
  bigSep_univ_of_subsingleton (0 : Fin 1)

theorem hSl : (opSl (F := F)).bufs ⊆ S5 := show ({a', c'} : Finset (DevRef τ sig)) ⊆ S5 by decide
theorem hRs : (opRs (F := F)).bufs ⊆ S5 := show ({c', i'} : Finset (DevRef τ sig)) ⊆ S5 by decide

/-- What @main leaves the claim: the two argument arrays at their launch contents, the result at the lookup. -/
abbrev FIN (d : Dev nD) : sProp 𝕄 := iprop((aLoc d ↦{fullShare} m (aLoc d)) ∗ xPts m d ∗ oPts d (OUT m d))

/-- @main on device d's TensorCore: the slice and the reshape (over the five arrays held whole), then the call, from
    the list, the table and the result array. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opSl) (S := S5) hSl (V := V0 m d)) $$ [Hb Hheld]
  · isplitl [Hb] <;> iassumption
  iintro ⟨Hb, Hheld⟩
  rw [wp_ret]; imodintro
  iapply (wp_hlo_within 𝒱 (SparseCore.T d) none Set.univ (op := opRs) (S := S5) hRs (V := (opSl (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Ha, Hx, Hc, Hi, Ho⟩
  iapply ((K (F := F)).wp_run (D (F := F)) 𝒱 (EH := EH) (P := P m) κ d 0) $$ [Hst Hi Hx Ho Ha]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨-, Hx, Ho⟩
  imodintro
  isplitl [Hst]; · iexact Hst
  isplitl [Ha]; · iexact Ha
  isplitl [Hx]; · iexact Hx
  iexact Ho

def fq (d : Dev nD) (s' : Phys nD τ sig (Elt F)) : Prop :=
  s'.mem.mem (oLoc d) = OUT m d ∧ s'.mem.mem (aLoc d) = m (aLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Ha, Hx, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := OUT m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = OUT m c ∧ r.2.mem (aLoc c) = m (aLoc c) ∧ r.2.mem (xLoc c) = m (xLoc c)

/-- Every weakly fair execution of the whole family of threads ends, nothing faulting, with the result array at the
    lookup of the two argument arrays and the argument arrays unchanged — given every index in range. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KRun

end
-- ==== Proof.KISetup.lean ====
/-
  The embedding lookup's kernel as the launch theorem sees it, and the vocabulary of its proof: the arrays (the index
  array, the table, the index array's first column and that column as a list, the result), the sixteen blocks of 256
  list entries and of 256 result rows the tasks take, the sixteenth shares of the table, what the handshakes carry,
  and a task's own cells and scratch buffers. The result is specified by the LOOKUP of Spec.lean.
-/
import proofs.«211053_g26998164423141_cont_9to1_407_5_alg».proof.Proof.Gen.KernelIdeal
import proofs.«211053_g26998164423141_cont_9to1_407_5_alg».proof.Proof.Gen.KernelIdeal.Skeleton
import proofs.«211053_g26998164423141_cont_9to1_407_5_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KIRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The index array, the table, the index array's first column, that column as a list, the result. -/
abbrev aLoc (d : Dev nD) : Loc nD τ sig := (SparseCore.T d).loc main_arg0
abbrev xLoc (d : Dev nD) : Loc nD τ sig := (SparseCore.T d).loc main_arg1
abbrev cLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

local notation "iV" => (Memref.whole Cert.KernelIdeal.main_v1_scv : Memref Cert.KernelIdeal.sig Kind.scVector Space.hbm Cert.KernelIdeal.S4096 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256x128 EltTy.f32)

/-- Sixteen blocks of 256 list entries; sixteen blocks of 256 result rows. -/
theorem idiv : 16 ∣ S4096.size 0 := ⟨256, rfl⟩
theorem odiv : 16 ∣ S4096x128.size 0 := ⟨256, rfl⟩
abbrev irow (i : Fin 16) : Rect S4096 := Rect.part (s := S4096) (a₀ := 0) idiv i
abbrev orow (i : Fin 16) : Rect S4096x128 := Rect.part (s := S4096x128) (a₀ := 0) odiv i
abbrev iRowSet (i : Fin 16) : Finset S4096.Idx := ((iV).view.slice (irow i)).set
abbrev oRowSet (i : Fin 16) : Finset S4096x128.Idx := ((oV).view.slice (orow i)).set

/-- Task i's share of the table: the full share cut in sixteen. -/
abbrev xq (i : Fin 16) : PosShare TreeShare := pieceOf fullShare 16 (by decide) i

/-- The index list the two host operations make of the index array: its first column, as a list. -/
def idxList (ids : IVec S4096x50 32) : IVec S4096 32 :=
  shapeCast S4096 (extractStridedSlice S4096x1 ![0, 0] ids slices_S4096x50_S4096x1_0_0) shapeCasts_S4096x1_S4096

variable [FloatOps F]

/-- What the result holds at the end: the lookup of the two argument arrays as the launch found them. -/
def OUT (d : Dev nD) : Buf (Elt F) (oLoc d) := Cert.Proof.Spec.lookup (m (aLoc d)) (m (xLoc d))
/-- What the list holds when the call starts. -/
def IDX (d : Dev nD) : Buf (Elt F) (iLoc d) := idxList (m (aLoc d))

/-! ## What the handshakes carry -/

abbrev iPts (d : Dev nD) : sProp 𝕄 := iLoc d ↦{fullShare} IDX m d
abbrev xPts (d : Dev nD) : sProp 𝕄 := xLoc d ↦{fullShare} m (xLoc d)
abbrev oPts (d : Dev nD) (f : Buf (Elt F) (oLoc d)) : sProp 𝕄 := oLoc d ↦{fullShare} f
abbrev iRowPts (d : Dev nD) (i : Fin 16) : sProp 𝕄 := iLoc d ↦[iRowSet i]{fullShare} IDX m d
abbrev xShPts (d : Dev nD) (i : Fin 16) : sProp 𝕄 := xLoc d ↦{xq i} m (xLoc d)
abbrev oRowPts (d : Dev nD) (i : Fin 16) (f : Buf (Elt F) (oLoc d)) : sProp 𝕄 := oLoc d ↦[oRowSet i]{fullShare} f

/-- The one call takes the list, the table and the result whole; each task its block of the list, its share of the
    table and its block of the result, and brings them back, the result's block at the lookup. -/
def P : (K (F := F)).Pay (nD := nD) (Val := Elt F) (Name := ℕ) (U := UU) where
  st := fun q d _ => match q with | 0 => iprop(iPts m d ∗ xPts m d ∗ oPts d (m (oLoc d)))
  dn := fun q d _ => match q with | 0 => iprop(iPts m d ∗ xPts m d ∗ oPts d (OUT m d))
  go := fun q d _ i => match q with
    | 0 => iprop(iRowPts m d (Fin.cast nSub_zero i) ∗ xShPts m d (Fin.cast nSub_zero i) ∗ oRowPts d (Fin.cast nSub_zero i) (m (oLoc d)))
  td := fun q d _ i => match q with
    | 0 => iprop(iRowPts m d (Fin.cast nSub_zero i) ∗ xShPts m d (Fin.cast nSub_zero i) ∗ oRowPts d (Fin.cast nSub_zero i) (OUT m d))
  x := fun _ _ => iprop(emp)

instance P_storable : (P (F := F) m).IsStorable where
  st q d _ := match q with
    | 0 => (inferInstance : BI.Storable (upEmb : UEmb _ 𝕄) iprop(iPts m d ∗ xPts m d ∗ oPts d (m (oLoc d))))
  dn q d _ := match q with
    | 0 => (inferInstance : BI.Storable (upEmb : UEmb _ 𝕄) iprop(iPts m d ∗ xPts m d ∗ oPts d (OUT m d)))
  go q d _ i := match q with
    | 0 => (inferInstance : BI.Storable (upEmb : UEmb _ 𝕄)
      iprop(iRowPts m d (Fin.cast nSub_zero i) ∗ xShPts m d (Fin.cast nSub_zero i) ∗ oRowPts d (Fin.cast nSub_zero i) (m (oLoc d))))
  td q d _ i := match q with
    | 0 => (inferInstance : BI.Storable (upEmb : UEmb _ 𝕄)
      iprop(iRowPts m d (Fin.cast nSub_zero i) ∗ xShPts m d (Fin.cast nSub_zero i) ∗ oRowPts d (Fin.cast nSub_zero i) (OUT m d)))

/-- What the proof asks of the launch memory: every entry of the index array names a row of the table. -/
def PreOK : Prop := ∀ d : Dev nD, Cert.Proof.Spec.InRange (m (aLoc d))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

abbrev irowK (L : grid0.Coords) : Rect S4096 := Rect.unit (s := S4096) (k0_off1 L) S256.size (k0_off1_inb L)
abbrev orowK (L : grid0.Coords) : Rect S4096x128 := Rect.unit (s := S4096x128) (k0_off2 L) S256x128.size (k0_off2_inb L)
/-- Block L 1 of the list and of the result, and all of the table, as the task addresses them. -/
abbrev iRowK (L : grid0.Coords) : Memref sig .scVector .hbm S256 .i32 := (iV).slice (irowK L) (fun _ => rfl)
abbrev oRowK (L : grid0.Coords) : Memref sig .scVector .hbm S256x128 .f32 := (oV).slice (orowK L) (fun _ => rfl)
abbrev xAllK : Memref sig .scVector .hbm S100000x128 .f32 := (xV).slice (Rect.unit (s := S100000x128) ![0, 0] S100000x128.size inb_S100000x128_S100000x128_0_0) (fun _ => rfl)

omit [FloatOps F] in
theorem grid_zero (L : grid0.Coords) : (L 0).val = 0 := by have := (L 0).isLt; change (L 0).val < 1 at this; omega

omit [FloatOps F] in
theorem irowK_eq : irowK L = irow (jL L) := by
  unfold irowK irow Rect.part Rect.block
  congr 1 <;> funext a
  · rw [k0_off1_eq]
    match a with
    | 0 => simp [Shape.partIx, Shape.partSize, grid_zero L] <;> omega
  · match a with
    | 0 => simp [Shape.partSize]
omit [FloatOps F] in
theorem orowK_eq : orowK L = orow (jL L) := by
  unfold orowK orow Rect.part Rect.block
  congr 1 <;> funext a
  · rw [k0_off2_eq]
    match a with
    | 0 => simp [Shape.partIx, Shape.partSize, grid_zero L] <;> omega
    | 1 => simp [Shape.partIx, Shape.partSize]
  · match a with
    | 0 => simp [Shape.partSize]
    | 1 => simp [Shape.partSize]

omit [FloatOps F] in
theorem set_iRowK : (iRowK L).view.set = iRowSet (jL L) := by
  show ((iV).view.slice (irowK L)).set = ((iV).view.slice (irow (jL L))).set
  rw [irowK_eq]
omit [FloatOps F] in
theorem set_oRowK : (oRowK L).view.set = oRowSet (jL L) := by
  show ((oV).view.slice (orowK L)).set = ((oV).view.slice (orow (jL L))).set
  rw [orowK_eq]

omit [FloatOps F] in
theorem pts_iRowK (f : Buf (Elt F) (iLoc d)) :
    ((iRowK L).view.loc (V d (cV L) (jV L)) ↦[(iRowK L).view.set]{fullShare} f : sProp 𝕄) = iLoc d ↦[iRowSet (jL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oRowSet (jL L)]{fullShare} f := by
  rw [set_oRowK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The three completion cells of a task: the gather's, the list fetch's, the write-out's. -/
abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- An entry of the index list is an entry of the index array (its first column), so it names a row of the table. -/
theorem idxList_lt (hpre : PreOK m) (j : S4096.Idx) : (IDX m d j).toNat < 100000 := hpre d _

/-- The words the stream reads are in range: what the list fetch landed in the index scratch is block L 1 of the
    list. -/
theorem inb_of_pre (hpre : PreOK m) (fs : Buf (Elt F) ((V d (cV L) (jV L)).loc cc0_scratch0)) (pay : S256.Idx → Elt F .i32)
    (hpay : pay = (iRowK L).view.read (Elt F) (IDX m d)) :
    ∀ x, ((sV).view.read (Elt F) (View.write (Elt F) (sV).view fs pay Finset.univ) x).toNat < S100000x128.size gathers_S100000x128_S256x128.axis := by
  subst hpay; intro x
  rw [View.write_whole_univ]
  simp only [Memref.view_whole, View.read_whole]
  rw [show ∀ j, (iRowK L).view.read (Elt F) (IDX m d) j = IDX m d ((iRowK L).view.emb j) from fun j => (View.read_apply _ _).trans (cast_eq _ _)]
  exact idxList_lt m d hpre _

end Tile

end Cert.Proof.KIRun

end
-- ==== Proof.KIValue.lean ====
/-
  The value a task leaves: its block of the result holds the lookup. Row k of the row scratch is the table's row whose
  number is entry k of the fetched block of the list — entry 256·(L 1) + k of the list, which is the first entry of row
  256·(L 1) + k of the index array — and the write-out puts row k of the row scratch at row 256·(L 1) + k of the result.
-/
import proofs.«211053_g26998164423141_cont_9to1_407_5_alg».proof.Proof.KISetup
import Idealize.ShloMosaic.Lib.Pipeline.Value

noncomputable section

namespace Cert.Proof.KIRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_v1_scv : Memref Cert.KernelIdeal.sig Kind.scVector Space.hbm Cert.KernelIdeal.S4096 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256x128 EltTy.f32)

variable [FloatOps F]

section Tile

variable (d : Dev nD) (L : grid0.Coords)

omit [FloatOps F] in
/-- An entry of the list is the first entry of the same row of the index array. -/
theorem idxList_apply (ids : IVec S4096x50 32) (r : Fin 4096) : idxList ids (ix1 r) = ids (ix2 r (0 : Fin 50)) := by
  unfold idxList
  rw [shapeCast_apply _ _ (ix1 r) (ix2 r (0 : Fin 1)) (by
    rw [Shape.rowMajor_val_two, Shape.rowMajor_val_one]
    show r.val * 1 + (0 : Fin 1).val = r.val
    simp)]
  unfold extractStridedSlice
  refine congrArg ids (funext fun a => Fin.ext ?_)
  match a with
  | ⟨0, _⟩ => simp
  | ⟨1, _⟩ => simp

omit [FloatOps F] in
/-- The one coordinate of the index of a 256-entry list at row-major position k is k. -/
theorem rowMajor_symm_256 (k : Fin S256.numel) : ((S256.rowMajor.symm k) 0).val = k.val := by
  have h := Shape.rowMajor_val_one (S256.rowMajor.symm k)
  rw [Equiv.apply_symm_apply] at h
  exact h.symm

omit [FloatOps F] in
/-- The task addresses the whole table: an index of its view is the table's own. -/
theorem xAllK_emb (z : S100000x128.Idx) : (xAllK).view.emb z = z := by
  funext a; apply Fin.ext
  simp only [Memref.view_slice, View.emb_slice, Function.Embedding.trans_apply, View.emb_whole, Function.Embedding.refl_apply, Rect.emb_apply]
  show (![0, 0] : Fin 2 → Nat) a + 1 * (z a).val = (z a).val
  match a with
  | ⟨0, _⟩ => simp
  | ⟨1, _⟩ => simp

omit [FloatOps F] in
/-- Row k of the task's block of the result is row 256·(L 1) + k of the result; the columns are the result's. -/
theorem oRowK_emb0 (y : S256x128.Idx) : (((oRowK L).view.emb y) 0).val = 256 * (L 1).val + (y 0).val := by
  simp only [Memref.view_slice, View.emb_slice, Function.Embedding.trans_apply, View.emb_whole, Function.Embedding.refl_apply, Rect.emb_apply]
  show k0_off2 L 0 + 1 * (y 0).val = _
  rw [k0_off2_eq]
  have := grid_zero L
  simp [this]
omit [FloatOps F] in
theorem oRowK_emb1 (y : S256x128.Idx) : (((oRowK L).view.emb y) 1).val = (y 1).val := by
  simp only [Memref.view_slice, View.emb_slice, Function.Embedding.trans_apply, View.emb_whole, Function.Embedding.refl_apply, Rect.emb_apply]
  show k0_off2 L 1 + 1 * (y 1).val = _
  rw [k0_off2_eq]
  simp
omit [FloatOps F] in
/-- Entry k of the task's block of the list is entry 256·(L 1) + k of the list. -/
theorem iRowK_emb0 (z : S256.Idx) : (((iRowK L).view.emb z) 0).val = 256 * (L 1).val + (z 0).val := by
  simp only [Memref.view_slice, View.emb_slice, Function.Embedding.trans_apply, View.emb_whole, Function.Embedding.refl_apply, Rect.emb_apply]
  show k0_off1 L 0 + 1 * (z 0).val = _
  rw [k0_off1_eq]
  have := grid_zero L
  simp [this]

omit [FloatOps F] in
/-- The gather's source index: on the row axis the row the list names, on the column axis the destination's column. -/
theorem gidx0 (r : Fin (S256x128.size gathers_S100000x128_S256x128.axis') → Fin (S100000x128.size gathers_S100000x128_S256x128.axis)) (y : S256x128.Idx) :
    ((gathers_S100000x128_S256x128.idx r y) 0).val = (r (y 0)).val := by
  unfold Shape.Gathers.idx
  split
  · rfl
  · rename_i h; exact absurd rfl h
omit [FloatOps F] in
theorem gidx1 (r : Fin (S256x128.size gathers_S100000x128_S256x128.axis') → Fin (S100000x128.size gathers_S100000x128_S256x128.axis)) (y : S256x128.Idx) :
    ((gathers_S100000x128_S256x128.idx r y) 1).val = (y 1).val := by
  unfold Shape.Gathers.idx
  rw [dif_neg (by decide)]
  rfl

omit [FloatOps F] in
/-- Row 256·(L 1) + k, for k below 256: a row of the result, and an entry of the list. -/
def rowNo (L : grid0.Coords) (k : Fin 256) : Fin 4096 :=
  ⟨256 * (L 1).val + k.val, by have h1 : (L 1).val < 16 := (L 1).isLt; have h2 := k.isLt; omega⟩

/-- The row the stream fetches for row k of the row scratch: the first entry of row 256·(L 1) + k of the index array. -/
theorem fetched_row (fs : Buf (Elt F) ((V d (cV L) (jV L)).loc cc0_scratch0))
    (hn : S256.numel = S256x128.size gathers_S100000x128_S256x128.axis')
    (hin : ∀ x, ((sV).view.read (Elt F) (View.write (Elt F) (sV).view fs (View.read (Elt F) (iRowK L).view (IDX m d)) Finset.univ) x).toNat
      < S100000x128.size gathers_S100000x128_S256x128.axis)
    (k : Fin (S256x128.size gathers_S100000x128_S256x128.axis')) (k' : Fin 256) (hk : k.val = k'.val) :
    (SparseCore.rows (View.read (Elt F) (sV).view (View.write (Elt F) (sV).view fs (View.read (Elt F) (iRowK L).view (IDX m d)) Finset.univ)) hn hin k).val
      = (m (aLoc d) (ix2 (rowNo L k') (0 : Fin 50))).toNat := by
  show ((View.read (Elt F) (sV).view (View.write (Elt F) (sV).view fs (View.read (Elt F) (iRowK L).view (IDX m d)) Finset.univ))
      (S256.rowMajor.symm (k.cast hn.symm))).toNat = _
  rw [View.read_write_univ]
  rw [show ∀ z, View.read (Elt F) (iRowK L).view (IDX m d) z = IDX m d ((iRowK L).view.emb z) from
    fun z => (View.read_apply _ _).trans (cast_eq _ _)]
  have hW : (iRowK L).view.emb (S256.rowMajor.symm (k.cast hn.symm)) = ix1 (rowNo L k') := by
    funext a
    match a with
    | ⟨0, _⟩ =>
      apply Fin.ext
      refine (iRowK_emb0 L _).trans ?_
      rw [rowMajor_symm_256]
      show 256 * (L 1).val + k.val = 256 * (L 1).val + k'.val
      rw [hk]
  rw [hW]
  unfold IDX
  rw [idxList_apply]

/-- What the task leaves in its block of the result is the lookup there: row k of the row scratch is the table's row
    whose number is entry k of the fetched block of the list, that is entry 256·(L 1) + k of the list, the first entry
    of row 256·(L 1) + k of the index array; and the write-out puts row k of the row scratch at row 256·(L 1) + k of the
    result. -/
theorem out_block_value (hpre : PreOK m) (f0 : Buf (Elt F) (oLoc d))
    (fs : Buf (Elt F) ((V d (cV L) (jV L)).loc cc0_scratch0)) (fr : Buf (Elt F) ((V d (cV L) (jV L)).loc cc0_scratch1))
    (hn : S256.numel = S256x128.size gathers_S100000x128_S256x128.axis')
    (hin : ∀ x, ((sV).view.read (Elt F) (View.write (Elt F) (sV).view fs (View.read (Elt F) (iRowK L).view (IDX m d)) Finset.univ) x).toNat
      < S100000x128.size gathers_S100000x128_S256x128.axis) :
    ∀ i ∈ (oRowK L).view.set,
      (oRowK L).view.writes (Elt F) f0 [⟨Rect.whole S256x128,
        (rV).view.read (Elt F) (View.write (Elt F) (rV).view fr
          (SparseCore.gatherPayload gathers_S100000x128_S256x128 (View.read (Elt F) (xAllK).view (m (xLoc d)))
            (SparseCore.rows (View.read (Elt F) (sV).view (View.write (Elt F) (sV).view fs (View.read (Elt F) (iRowK L).view (IDX m d)) Finset.univ)) hn hin))
          Finset.univ)⟩] i = OUT m d i := by
  intro i hi
  obtain ⟨y, rfl⟩ := View.exists_emb_of_mem_set _ hi
  have h1 : ∀ g : Buf (Elt F) (oLoc d), g ((oRowK L).view.emb y) = (oRowK L).view.read (Elt F) g y :=
    fun g => ((View.read_apply _ _).trans (cast_eq _ _)).symm
  refine (h1 _).trans ?_
  rw [View.read_writes_whole, View.read_write_univ]
  unfold SparseCore.gatherPayload
  rw [show ∀ z, View.read (Elt F) (xAllK).view (m (xLoc d)) z = m (xLoc d) ((xAllK).view.emb z) from
    fun z => (View.read_apply _ _).trans (cast_eq _ _)]
  show _ = Cert.Proof.Spec.lookup (m (aLoc d)) (m (xLoc d)) ((oRowK L).view.emb y)
  unfold Cert.Proof.Spec.lookup
  rw [xAllK_emb]
  -- the row of the index array this element of the result reads
  have hy0 : (y 0).val < 256 := (y 0).isLt
  have hrow : ((oRowK L).view.emb y) 0 = rowNo L ⟨(y 0).val, hy0⟩ := Fin.ext (oRowK_emb0 L y)
  have hlt := hpre d (ix2 (rowNo L ⟨(y 0).val, hy0⟩) (0 : Fin 50))
  refine congrArg (m (xLoc d)) (funext fun a => Fin.ext ?_)
  match a with
  | ⟨0, _⟩ =>
    refine (gidx0 _ y).trans ?_
    rw [fetched_row m d L fs hn hin (y 0) ⟨(y 0).val, hy0⟩ rfl, hrow]
    show _ = (m (aLoc d) (ix2 (rowNo L ⟨(y 0).val, hy0⟩) (0 : Fin 50))).toNat % 100000
    rw [Nat.mod_eq_of_lt hlt]
  | ⟨1, _⟩ =>
    refine (gidx1 _ y).trans ?_
    exact (oRowK_emb1 L y).symm

end Tile

end Cert.Proof.KIRun

end
-- ==== Proof.KITile.lean ====
/-
  One tile's task of the embedding lookup, at a symbolic place: fetch a block of 256 entries of the index list into the
  index scratch, gather those 256 rows of the table into the row scratch by the indirect stream, copy the row scratch
  out to the task's 256 rows of the result. The task runs to its end with no fault and no wait unanswered, gives back
  its block of the list and its share of the table unchanged, and leaves its block of the result at the lookup.
-/
import proofs.«211053_g26998164423141_cont_9to1_407_5_alg».proof.Proof.KIValue

noncomputable section

namespace Cert.Proof.KIRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_v1_scv : Memref Cert.KernelIdeal.sig Kind.scVector Space.hbm Cert.KernelIdeal.S4096 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v2_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256x128 EltTy.f32)

variable [FloatOps F]

section Tile

variable (d : Dev nD) (L : grid0.Coords)

set_option maxHeartbeats 4000000 in
/-- The task on vector subcore (L 0, L 1) of device d. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iRowPts m d (jL L) ∗ xShPts m d (jL L) ∗ oRowPts d (jL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather L xV (Memref.isWhole_whole _) iV (Memref.isWhole_whole _) oV (Memref.isWhole_whole _)
            sV (Memref.isWhole_whole _) rV (Memref.isWhole_whole _) cc0_scratch2 cc0_scoped0 cc0_scoped1)
          fun _ => iprop((iRowPts m d (jL L) ∗ xShPts m d (jL L) ∗ oRowPts d (jL L) (OUT m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_eq_skeleton]; unfold cc0__sc_gather_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  -- the gather: the stream over the fetched block of the list, every word of it a row of the table
  ihave Hxs := (pointsTo_split_subset (q := xq (jL L)) (f := m (xLoc d)) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 m d L) Finset.univ : sProp 𝕄)
      = (sV).view.loc (V d (cV L) (jV L)) ↦[(sV).view.set]{fullShare} View.write (Elt F) (sV).view fs (tile_body.sl.dma0 m d L) Finset.univ
      by rw [hss])) $$ Hs'
  have hN : ∀ h : S100000x128.Gathers 0 S256x128, ∑ j, ((rV).slice (S256x128.rowRect h.axis' j) (S256x128.stride_rowRect h.axis' j)).view.dmaCredit
      = (rV).view.dmaCredit := by decide
  iapply (SparseCore.wp_indirectGatherLocal countersEmb 𝒱₀ (V d (cV L) (jV L)) none (hg := gathers_S100000x128_S256x128) (default : HIx 1)
      (rV).view.dmaCredit (hN _) (by decide) (inb_of_pre m d L hpre fs _ rfl)) $$ [Hxs Hr'' Hs'' HsemG]
  · isplitl [Hxs]; · iexact Hxs
    isplitl [Hr'']; · iexact Hr''
    isplitl [Hs'']; · iexact Hs''
    iexact HsemG
  iintro Hfl
  sl_exec
  -- its wait: the row scratch written with the gathered rows; the table's share and the list's scratch back
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemG, HO⟩
  ihave Hx' := (pointsTo_split_subset (q := xq (jL L)) (f := m (xLoc d)) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  -- the block of the result holds the lookup
  have hval : ∀ i ∈ (oRowK L).view.set,
      (oRowK L).view.writes (Elt F) (m (oLoc d)) [⟨Rect.whole S256x128, tile_body.sl.dma0_1 m d L hpre fs fr⟩] i = OUT m d i :=
    out_block_value m d L hpre (m (oLoc d)) fs fr rfl (inb_of_pre m d L hpre fs _ rfl)
  ihave Ho2 := (Entails.of_eq (pointsTo_congr (ℓ := (oRowK L).view.loc (V d (cV L) (jV L))) (I := (oRowK L).view.set) (q := fullShare) hval)) $$ Ho'
  isplitl [Hi' Hx' Ho2]
  · isplitl [Hi']; · iapply (Entails.of_eq (pts_iRowK (F := F) d L _)); iexact Hi'
    isplitl [Hx']; · iexact Hx'
    iapply (Entails.of_eq (pts_oRowK (F := F) d L _)); iexact Ho2
  isplitl [Hs3 Hr3 Hbufs]
  · isplitl [Hs3]; · iexists _; iexact Hs3
    isplitl [Hr3]; · iexists _; iexact Hr3
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Tile

end Cert.Proof.KIRun

end
-- ==== Proof.KILaunch.lean ====
/-
  The launch of the embedding lookup and its run: how the call's operands — the index list, the table, the result
  array — split into the sixteen tasks' (a block of 256 list entries, a sixteenth share of the table, a block of 256
  result rows) and join again; @main on the TensorCore (the two host operations that make the list of the index
  array's first column, then the call); and the run of the whole family of threads: every weakly fair execution
  ends, nothing faulting, with the result array at the LOOKUP of the two argument arrays and those unchanged.
-/
import proofs.«211053_g26998164423141_cont_9to1_407_5_alg».proof.Proof.KITile

noncomputable section

namespace Cert.Proof.KIRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)

local notation "iV" => (Memref.whole Cert.KernelIdeal.main_v1_scv : Memref Cert.KernelIdeal.sig Kind.scVector Space.hbm Cert.KernelIdeal.S4096 EltTy.i32)
local notation "oV" => (Memref.whole Cert.KernelIdeal.main_v2_scv : Memref Cert.KernelIdeal.sig Kind.scVector Space.hbm Cert.KernelIdeal.S4096x128 EltTy.f32)

/-! ## The blocks split and join; the shares of the table -/

theorem iRowSet_eq (i : Fin 16) : iRowSet i = (irow i).set := by
  show ((View.whole (main_v1_scv : Ref sig .scVector)).slice (irow i)).set = _
  rw [View.set_slice]; exact Finset.map_refl
theorem oRowSet_eq (i : Fin 16) : oRowSet i = (orow i).set := by
  show ((View.whole (main_v2_scv : Ref sig .scVector)).slice (orow i)).set = _
  rw [View.set_slice]; exact Finset.map_refl
theorem irows_disjoint : ∀ i ∈ (Finset.univ : Finset (Fin 16)), ∀ j ∈ (Finset.univ : Finset (Fin 16)), i ≠ j → Disjoint (iRowSet i) (iRowSet j) :=
  fun i _ j _ h => by rw [iRowSet_eq, iRowSet_eq]; exact Rect.part_disjoint idiv h
theorem orows_disjoint : ∀ i ∈ (Finset.univ : Finset (Fin 16)), ∀ j ∈ (Finset.univ : Finset (Fin 16)), i ≠ j → Disjoint (oRowSet i) (oRowSet j) :=
  fun i _ j _ h => by rw [oRowSet_eq, oRowSet_eq]; exact Rect.part_disjoint odiv h
theorem irows_cover : (Finset.univ : Finset (Fin 16)).biUnion iRowSet = Finset.univ :=
  (Finset.biUnion_congr rfl fun i _ => iRowSet_eq i).trans (Rect.biUnion_part idiv)
theorem orows_cover : (Finset.univ : Finset (Fin 16)).biUnion oRowSet = Finset.univ :=
  (Finset.biUnion_congr rfl fun i _ => oRowSet_eq i).trans (Rect.biUnion_part odiv)

theorem iPts_rows (d : Dev nD) (f : Buf (Elt F) (iLoc d)) :
    (iLoc d ↦{fullShare} f : sProp 𝕄) = bigSep Finset.univ fun i : Fin 16 => iLoc d ↦[iRowSet i]{fullShare} f := by
  rw [← pointsTo_biUnion Finset.univ (ℓ := iLoc d) iRowSet irows_disjoint, irows_cover]; try rfl
theorem oPts_rows (d : Dev nD) (f : Buf (Elt F) (oLoc d)) :
    (oLoc d ↦{fullShare} f : sProp 𝕄) = bigSep Finset.univ fun i : Fin 16 => oLoc d ↦[oRowSet i]{fullShare} f := by
  rw [← pointsTo_biUnion Finset.univ (ℓ := oLoc d) oRowSet orows_disjoint, orows_cover]; try rfl
theorem xPts_shares (d : Dev nD) (f : Buf (Elt F) (xLoc d)) :
    (xLoc d ↦{fullShare} f : sProp 𝕄) = bigSep Finset.univ fun i : Fin 16 => xLoc d ↦{xq i} f :=
  pointsTo_piecesOf Finset.univ f (by decide) fullShare

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

/-- The call's operands are the sixteen tasks'; the tasks' results are the call's: each block of the result comes
    back at the lookup, so the blocks together are the result array at the lookup. -/
theorem vecSplit : (K (F := F)).VecSplit' (P m) 0 := by
  intro d c
  show iprop(iPts m d ∗ xPts m d ∗ oPts d (m (oLoc d))) ⊢ |={Set.univ}=> iprop(
      (bigSep Finset.univ fun i : Fin ((K (F := F)).nSub 0) =>
        iprop(iRowPts m d (Fin.cast nSub_zero i) ∗ xShPts m d (Fin.cast nSub_zero i) ∗ oRowPts d (Fin.cast nSub_zero i) (m (oLoc d))))
      ∗ ((bigSep Finset.univ fun i : Fin ((K (F := F)).nSub 0) =>
          iprop(iRowPts m d (Fin.cast nSub_zero i) ∗ xShPts m d (Fin.cast nSub_zero i) ∗ oRowPts d (Fin.cast nSub_zero i) (OUT m d)))
          -∗ iprop(iPts m d ∗ xPts m d ∗ oPts d (OUT m d))))
  rw [bigSep_tasks (F := F) (fun i => iprop(iRowPts m d i ∗ xShPts m d i ∗ oRowPts d i (m (oLoc d)))),
    bigSep_tasks (F := F) (fun i => iprop(iRowPts m d i ∗ xShPts m d i ∗ oRowPts d i (OUT m d))), bigSep_sep', bigSep_sep', bigSep_sep', bigSep_sep']
  unfold iPts xPts oPts iRowPts xShPts oRowPts
  rw [iPts_rows, xPts_shares, oPts_rows d (m (oLoc d)), oPts_rows d (OUT m d)]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev x' : DevRef τ sig := Proc.devRef .tc (main_arg1 : Ref sig .tc)
abbrev c' : DevRef τ sig := Proc.devRef .tc (main_v0 : Ref sig .tc)
abbrev i' : DevRef τ sig := Proc.devRef .tc (main_v1 : Ref sig .tc)
abbrev o' : DevRef τ sig := Proc.devRef .tc (main_v2 : Ref sig .tc)
/-- The first column of the index array; that column as a list. -/
abbrev opSl : HloOp τ sig (Elt F) := StableHlo.unary main_arg0 main_v0 ((extractStridedSlice S4096x1 ![0, 0] · slices_S4096x50_S4096x1_0_0) : (⟨S4096x50, .i32⟩ : BufTy).Contents (Elt F) → (⟨S4096x1, .i32⟩ : BufTy).Contents (Elt F))
abbrev opRs : HloOp τ sig (Elt F) := StableHlo.reshape main_v0 main_v1 rfl shapeCasts_S4096x1_S4096

/-- The TensorCore's arrays, all unscoped. -/
abbrev S5 : Finset (DevRef τ sig) := {a', x', c', i', o'}

omit [FloatOps F] in
theorem held_S5 (d : Dev nD) (W : Valuation τ sig (Elt F)) :
    (held (T d) S5 W : sProp 𝕄)
      = iprop((aLoc d ↦{fullShare} W a') ∗ (xLoc d ↦{fullShare} W x') ∗ (cLoc d ↦{fullShare} W c')
          ∗ (iLoc d ↦{fullShare} W i') ∗ oLoc d ↦{fullShare} W o') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_arg1) ∗ (cLoc d ↦{fullShare} W main_v0)
          ∗ (iLoc d ↦{fullShare} W main_v1) ∗ oLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation, and the valuation before the call: the two operations' results. -/
def V0 (d : Dev nD) : Valuation τ sig (Elt F) := fun b => m (d, b)
def V2 (d : Dev nD) : Valuation τ sig (Elt F) := (opRs (F := F)).result ((opSl (F := F)).result (V0 m d))

theorem unscoped_held (d : Dev nD) : (unscopedBufs d (fun b => m ((SparseCore.T d).loc b)) : sProp 𝕄) = held (T d) S5 (V0 m d) := by
  rw [unscopedBufs_eq, held_S5]; rfl

theorem V2_a (d : Dev nD) : V2 m d a' = m (aLoc d) := by
  unfold V2
  rw [(opRs (F := F)).result_of_not_mem _ (show a' ∉ ({i'} : Finset (DevRef τ sig)) by decide),
    (opSl (F := F)).result_of_not_mem _ (show a' ∉ ({c'} : Finset (DevRef τ sig)) by decide)]
  rfl
theorem V2_x (d : Dev nD) : V2 m d x' = m (xLoc d) := by
  unfold V2
  rw [(opRs (F := F)).result_of_not_mem _ (show x' ∉ ({i'} : Finset (DevRef τ sig)) by decide),
    (opSl (F := F)).result_of_not_mem _ (show x' ∉ ({c'} : Finset (DevRef τ sig)) by decide)]
  rfl
theorem V2_o (d : Dev nD) : V2 m d o' = m (oLoc d) := by
  unfold V2
  rw [(opRs (F := F)).result_of_not_mem _ (show o' ∉ ({i'} : Finset (DevRef τ sig)) by decide),
    (opSl (F := F)).result_of_not_mem _ (show o' ∉ ({c'} : Finset (DevRef τ sig)) by decide)]
  rfl
/-- The list, when the call starts, is the first column of the index array as the launch found it. -/
theorem V2_i (d : Dev nD) : V2 m d i' = IDX m d := by
  unfold V2
  rw [StableHlo.reshape_result main_v0 main_v1 rfl shapeCasts_S4096x1_S4096,
    StableHlo.unary_result main_arg0 main_v0]
  rfl

theorem held_V2 (d : Dev nD) :
    (held (T d) S5 ((opRs (F := F)).result ((opSl (F := F)).result (V0 m d))) : sProp 𝕄)
      = iprop((aLoc d ↦{fullShare} m (aLoc d)) ∗ xPts m d ∗ (cLoc d ↦{fullShare} V2 m d c') ∗ iPts m d ∗ oPts d (m (oLoc d))) := by
  show held (SparseCore.T d) S5 (V2 m d) = _
  rw [held_S5, V2_a, V2_x, V2_i, V2_o]

theorem st0_eq (d : Dev nD) : (bigSep Finset.univ fun c : Fin ((K (F := F)).nCore 0) => (P m).st 0 d c) = iprop(iPts m d ∗ xPts m d ∗ oPts d (m (oLoc d))) :=
  bigSep_univ_of_subsingleton (0 : Fin 1)
theorem dn0_eq (d : Dev nD) : (bigSep Finset.univ fun c : Fin ((K (F := F)).nCore 0) => (P m).dn 0 d c) = iprop(iPts m d ∗ xPts m d ∗ oPts d (OUT m d)) :=
  bigSep_univ_of_subsingleton (0 : Fin 1)

theorem hSl : (opSl (F := F)).bufs ⊆ S5 := show ({a', c'} : Finset (DevRef τ sig)) ⊆ S5 by decide
theorem hRs : (opRs (F := F)).bufs ⊆ S5 := show ({c', i'} : Finset (DevRef τ sig)) ⊆ S5 by decide

/-- What @main leaves the claim: the two argument arrays at their launch contents, the result at the lookup. -/
abbrev FIN (d : Dev nD) : sProp 𝕄 := iprop((aLoc d ↦{fullShare} m (aLoc d)) ∗ xPts m d ∗ oPts d (OUT m d))

/-- @main on device d's TensorCore: the slice and the reshape (over the five arrays held whole), then the call, from
    the list, the table and the result array. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opSl) (S := S5) hSl (V := V0 m d)) $$ [Hb Hheld]
  · isplitl [Hb] <;> iassumption
  iintro ⟨Hb, Hheld⟩
  rw [wp_ret]; imodintro
  iapply (wp_hlo_within 𝒱 (SparseCore.T d) none Set.univ (op := opRs) (S := S5) hRs (V := (opSl (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Ha, Hx, Hc, Hi, Ho⟩
  iapply ((K (F := F)).wp_run (D (F := F)) 𝒱 (EH := EH) (P := P m) κ d 0) $$ [Hst Hi Hx Ho Ha]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨-, Hx, Ho⟩
  imodintro
  isplitl [Hst]; · iexact Hst
  isplitl [Ha]; · iexact Ha
  isplitl [Hx]; · iexact Hx
  iexact Ho

def fq (d : Dev nD) (s' : Phys nD τ sig (Elt F)) : Prop :=
  s'.mem.mem (oLoc d) = OUT m d ∧ s'.mem.mem (aLoc d) = m (aLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Ha, Hx, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := OUT m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = OUT m c ∧ r.2.mem (aLoc c) = m (aLoc c) ∧ r.2.mem (xLoc c) = m (xLoc c)

/-- Every weakly fair execution of the whole family of threads ends, nothing faulting, with the result array at the
    lookup of the two argument arrays and the argument arrays unchanged — given every index in range. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KIRun

end
-- ==== Proof.RefRun.lean ====
/-
  The reference program's run, read back. Its entry function calls the gather helper, which calls the
  select helper; with both calls unfolded the program is a straight line of twenty-five host operations.
  This module lists them in program order, shows the entry function is exactly that line, names the pure
  term the line computes for the result buffer, and states the run: every weakly fair execution
  terminates with the result buffer at that term of the two argument arrays, the arguments unchanged.

  The line is read in three stretches. The first eight operations turn the index array into the gather's
  start indices (negative entries shifted by the table's height, a unit last axis added). The next eleven
  compute from those start indices the in-bounds mask and the gathered rows. The last six select between the
  gathered rows and the filler, keep the first of the fifty gathered rows of each batch entry, and drop the
  unit axis. Each stretch's effect on the buffers the next one reads is a small computation; the whole line's
  effect is their composition.
-/
import proofs.«211053_g26998164423141_cont_9to1_407_5_alg».proof.Proof.Gen.ReferenceIdeal
import Idealize.ShloMosaic.Lib.StableHlo.Run

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The entry function's operations in order, the two calls unfolded: the gather helper's first six (the zero
    and its broadcast, the sign test, the table height and its broadcast, the shifted index), the select
    helper's one (the normalised index), the gather helper's remaining sixteen (the index with a unit axis, the
    two bounds and their comparisons, the conjunction and its reduction over the unit axis, the gather, the
    mask's broadcast, the filler and its broadcast, the final select), then the entry function's own slice
    and reshape. -/
abbrev ops : List (HloOp τ sig (Elt F)) :=
  [ TRef.nullary main_call0.c (constantI S_ 32 0#32),
    TRef.unary main_call0.c main_call0.v0 (broadcastInDim S4096x50 ![] bcast_S_S4096x50),
    TRef.binary (.of main_arg0) main_call0.v0 main_call0.v1 (cmpi .slt),
    TRef.nullary main_call0.c_0 (constantI S_ 32 100000#32),
    TRef.unary main_call0.c_0 main_call0.v2 (broadcastInDim S4096x50 ![] bcast_S_S4096x50),
    TRef.binary (.of main_arg0) main_call0.v2 main_call0.v3 addi,
    TRef.ternary main_call0.v1 main_call0.v3 (.of main_arg0) main_call0.call0.v0 select,
    TRef.unary main_call0.call0.v0 main_call0.v5 (broadcastInDim S4096x50x1 ![0, 1] bcast_S4096x50_S4096x50x1_0_1),
    TRef.nullary main_call0.c_1 (constantI S1 32 99999#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg1) main_call0.v5 main_call0.v13 (fun x i => Host.gather gather_S100000x128_S4096x50x1_S4096x50x128_2_0_n_n_0_2_1128 x i),
    TRef.unary main_call0.v12 main_call0.v14 (broadcastInDim S4096x50x128 ![0, 1] bcast_S4096x50_S4096x50x128_0_1),
    TRef.nullary main_call0.cst (constant S_ .f32 0x7FC00000#32),
    TRef.unary main_call0.cst main_call0.v15 (broadcastInDim S4096x50x128 ![] bcast_S_S4096x50x128),
    TRef.ternary main_call0.v14 main_call0.v13 main_call0.v15 main_call0.v16 select,
    unary main_v0 main_v1 ((extractStridedSlice S4096x1x128 ![0, 0, 0] · slices_S4096x50x128_S4096x1x128_0_0_0) : (⟨S4096x50x128, .f32⟩ : BufTy).Contents (Elt F) → (⟨S4096x1x128, .f32⟩ : BufTy).Contents (Elt F)),
    reshape main_v1 main_v2 rfl shapeCasts_S4096x1x128_S4096x128 ]

/-- The first stretch: from the index array to the gather's start indices. -/
abbrev ops₁ : List (HloOp τ sig (Elt F)) :=
  [ TRef.nullary main_call0.c (constantI S_ 32 0#32),
    TRef.unary main_call0.c main_call0.v0 (broadcastInDim S4096x50 ![] bcast_S_S4096x50),
    TRef.binary (.of main_arg0) main_call0.v0 main_call0.v1 (cmpi .slt),
    TRef.nullary main_call0.c_0 (constantI S_ 32 100000#32),
    TRef.unary main_call0.c_0 main_call0.v2 (broadcastInDim S4096x50 ![] bcast_S_S4096x50),
    TRef.binary (.of main_arg0) main_call0.v2 main_call0.v3 addi,
    TRef.ternary main_call0.v1 main_call0.v3 (.of main_arg0) main_call0.call0.v0 select,
    TRef.unary main_call0.call0.v0 main_call0.v5 (broadcastInDim S4096x50x1 ![0, 1] bcast_S4096x50_S4096x50x1_0_1) ]

/-- The second stretch: from the start indices to the in-bounds mask and the gathered rows. -/
abbrev ops₂ : List (HloOp τ sig (Elt F)) :=
  [ TRef.nullary main_call0.c_1 (constantI S1 32 99999#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg1) main_call0.v5 main_call0.v13 (fun x i => Host.gather gather_S100000x128_S4096x50x1_S4096x50x128_2_0_n_n_0_2_1128 x i) ]

/-- The third stretch: the select, the slice and the reshape. -/
abbrev ops₃ : List (HloOp τ sig (Elt F)) :=
  [ TRef.unary main_call0.v12 main_call0.v14 (broadcastInDim S4096x50x128 ![0, 1] bcast_S4096x50_S4096x50x128_0_1),
    TRef.nullary main_call0.cst (constant S_ .f32 0x7FC00000#32),
    TRef.unary main_call0.cst main_call0.v15 (broadcastInDim S4096x50x128 ![] bcast_S_S4096x50x128),
    TRef.ternary main_call0.v14 main_call0.v13 main_call0.v15 main_call0.v16 select,
    unary main_v0 main_v1 ((extractStridedSlice S4096x1x128 ![0, 0, 0] · slices_S4096x50x128_S4096x1x128_0_0_0) : (⟨S4096x50x128, .f32⟩ : BufTy).Contents (Elt F) → (⟨S4096x1x128, .f32⟩ : BufTy).Contents (Elt F)),
    reshape main_v1 main_v2 rfl shapeCasts_S4096x1x128_S4096x128 ]

theorem ops_split : (ops : List (HloOp τ sig (Elt F))) = ops₁ ++ (ops₂ ++ ops₃) := rfl

set_option maxRecDepth 1024 in
/-- The entry function is that straight line: the two helpers' definitions unfolded at their calls, both sides are
    one chain of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., reshape_bufs_sub ..⟩

/-! ## What the line computes -/

/-- The index array with every negative entry shifted by the table's height. -/
def normIdx (ids : IVec S4096x50 32) : IVec S4096x50 32 :=
  select (cmpi .slt ids (broadcastInDim S4096x50 ![] bcast_S_S4096x50 (constantI S_ 32 0#32)))
    (addi ids (broadcastInDim S4096x50 ![] bcast_S_S4096x50 (constantI S_ 32 100000#32))) ids

/-- The gather's start indices: the normalised index array with a unit last axis. -/
def idx3 (ids : IVec S4096x50 32) : IVec S4096x50x1 32 :=
  broadcastInDim S4096x50x1 ![0, 1] bcast_S4096x50_S4096x50x1_0_1 (normIdx ids)

/-- Per start index, whether it lies between 0 and 99999 (signed): the conjunction of the two comparisons. -/
def inBounds (i3 : IVec S4096x50x1 32) : IVec S4096x50x1 1 :=
  andi (cmpi .sge i3 (broadcastInDim S4096x50x1 ![] bcast_S_S4096x50x1 (constantI S_ 32 0#32)))
    (cmpi .sle i3 (broadcastInDim S4096x50x1 ![0, 1, 2] bcast_S1x1x1_S4096x50x1_0_1_2
      (broadcastInDim S1x1x1 ![2] bcast_S1_S1x1x1_2 (constantI S1 32 99999#32))))

/-- The in-bounds mask: that conjunction reduced by "and" over the unit axis. -/
def mask (i3 : IVec S4096x50x1 32) : IVec S4096x50 1 :=
  Host.reduce IntOp.andi (inBounds i3) (constantI S_ 1 1#1) reducesTo_S4096x50x1_S4096x50_d2 h_S_

/-- The gathered rows: for each start index the row of the table it names (the gather clamps it into the table). -/
def rows (tab : FVec F S100000x128 .f32) (i3 : IVec S4096x50x1 32) : FVec F S4096x50x128 .f32 :=
  Host.gather gather_S100000x128_S4096x50x1_S4096x50x128_2_0_n_n_0_2_1128 tab i3

/-- The gathered value where the mask is set, the filler elsewhere. -/
def sel (m : IVec S4096x50 1) (r : FVec F S4096x50x128 .f32) : FVec F S4096x50x128 .f32 :=
  select (broadcastInDim S4096x50x128 ![0, 1] bcast_S4096x50_S4096x50x128_0_1 m) r
    (broadcastInDim S4096x50x128 ![] bcast_S_S4096x50x128 (constant (F := F) S_ .f32 0x7FC00000#32))

/-- The first of the fifty rows of each batch entry, the unit axis dropped. -/
def firstRow (s : FVec F S4096x50x128 .f32) : FVec F S4096x128 .f32 :=
  shapeCast S4096x128 (extractStridedSlice S4096x1x128 ![0, 0, 0] s slices_S4096x50x128_S4096x1x128_0_0_0)
    shapeCasts_S4096x1x128_S4096x128

/-- What the line computes for the result buffer, as one pure term of the index array and the table. -/
def out (ids : IVec S4096x50 32) (tab : FVec F S100000x128 .f32) : FVec F S4096x128 .f32 :=
  firstRow (sel (mask (idx3 ids)) (rows tab (idx3 ids)))

/-! ## The three stretches read back -/

/-- Running one line after another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

set_option maxRecDepth 4096 in
/-- After the first stretch the start-index buffer holds `idx3` of the index array. -/
theorem s1_v5 (V : Valuation τ sig (Elt F)) :
    after ops₁ V (main_call0_v5 : DevRef τ sig) = idx3 (V (main_arg0 : DevRef τ sig)) := by
  simp only [after_cons, after_nil]
  rfl

set_option maxRecDepth 4096 in
/-- The first stretch does not write the table's buffer. -/
theorem s1_arg1 (V : Valuation τ sig (Elt F)) :
    after ops₁ V (main_arg1 : DevRef τ sig) = V (main_arg1 : DevRef τ sig) := by
  simp only [after_cons, after_nil]
  rfl

attribute [local irreducible] Host.reduce Host.gather in
set_option maxRecDepth 4096 in
/-- After the second stretch the mask buffer holds `mask` of the start indices. -/
theorem s2_v12 (V : Valuation τ sig (Elt F)) :
    after ops₂ V (main_call0_v12 : DevRef τ sig) = mask (V (main_call0_v5 : DevRef τ sig)) := by
  simp only [after_cons, after_nil]
  rfl

attribute [local irreducible] Host.reduce Host.gather in
set_option maxRecDepth 4096 in
/-- After the second stretch the gathered-rows buffer holds `rows` of the table and the start indices. -/
theorem s2_v13 (V : Valuation τ sig (Elt F)) :
    after ops₂ V (main_call0_v13 : DevRef τ sig)
      = rows (V (main_arg1 : DevRef τ sig)) (V (main_call0_v5 : DevRef τ sig)) := by
  simp only [after_cons, after_nil]
  rfl

set_option maxRecDepth 4096 in
/-- After the third stretch the result buffer holds the first selected row of each batch entry. -/
theorem s3_v2 (V : Valuation τ sig (Elt F)) :
    after ops₃ V (main_v2 : DevRef τ sig)
      = firstRow (sel (V (main_call0_v12 : DevRef τ sig)) (V (main_call0_v13 : DevRef τ sig))) := by
  simp only [after_cons, after_nil]
  rfl

/-- The whole line at the result buffer: the three stretches composed. -/
theorem out_eq (V : Valuation τ sig (Elt F)) :
    after ops V (main_v2 : DevRef τ sig) = out (V (main_arg0 : DevRef τ sig)) (V (main_arg1 : DevRef τ sig)) := by
  rw [ops_split, after_append, after_append, s3_v2, s2_v12, s2_v13, s1_v5, s1_arg1]
  rfl

set_option maxRecDepth 8192 in
/-- No operation of the line writes the index array's buffer. -/
theorem arg0_eq (V : Valuation τ sig (Elt F)) :
    after ops V (main_arg0 : DevRef τ sig) = V (main_arg0 : DevRef τ sig) := by
  simp only [after_cons, after_nil]
  rfl

set_option maxRecDepth 8192 in
/-- No operation of the line writes the table's buffer. -/
theorem arg1_eq (V : Valuation τ sig (Elt F)) :
    after ops V (main_arg1 : DevRef τ sig) = V (main_arg1 : DevRef τ sig) := by
  simp only [after_cons, after_nil]
  rfl

/-! ## The run -/

/-- On the device, for any float values, from any memory with zero counters: every weakly fair execution of the
    entry function terminates with the result buffer at `out` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (out_eq _), (h c main_arg0).trans (arg0_eq _),
      (h c main_arg1).trans (arg1_eq _)⟩)
    (run_seq scopedRefs_eq scopedSems_eq defs main (fun _ => ops) main_eq (fun _ => ops_sub) m ρ)

end Cert.Proof.RefRun

end
-- ==== Proof.RefValue.lean ====
/-
  The reference's value. Under the signed range 0 … 99999 of the index words, the pure term the reference's
  line computes for its result is the pooled lookup: result[b, q] = table[ids[b, 0], q]. The proof follows the
  term from the outside in, one index at a time. The reshape and the slice read the select at (b, 0, q). No index
  word is negative, so the normalisation is the identity and each start index is the index array's entry; every
  start index passes both bound tests, so the mask, a reduction by "and" of ones, is all ones and the select keeps
  the gathered value. The gather reads the table at the row the start index names, read signed and clamped into
  the table; for a word in range that row is the word's unsigned value, which the table's height does not reduce.
  Nothing here looks at the table's entries: the statement is pure data movement.
-/
import proofs.«211053_g26998164423141_cont_9to1_407_5_alg».proof.Proof.RefRun
import proofs.«211053_g26998164423141_cont_9to1_407_5_alg».proof.Proof.Spec
import Idealize.ShloMosaic.Lib.ValueIdx
import Idealize.ShloMosaic.Lib.Pipeline.Value
import Idealize.ShloMosaic.Lib.ReduceAll

noncomputable section

namespace Cert.Proof.RefValue

open Cert.ReferenceIdeal Cert.ReferenceIdeal.Gen Idealize.ShloMosaic Idealize.ShloMosaic.ValueIdx
open Cert.Proof.RefRun

variable {F : FTy → Type} [FloatOps F]

/-! ## Words -/

/-- A word that is not negative (signed) is left alone by the normalisation "if negative, add the table's height". -/
theorem normalise_word (v : BitVec 32) (h : 0 ≤ v.toInt) :
    Scalar.select (IntOp.cmpi .slt v 0#32) (IntOp.addi v 100000#32) v = v := by
  have hc : ¬ IntOp.cmpi .slt v 0#32 = 1#1 := by
    rw [IntOp.cmpi_slt]
    have z : (0#32 : BitVec 32).toInt = 0 := by decide
    omega
  exact if_neg hc

/-- A word between 0 and 99999 (signed) passes both bound tests. -/
theorem bounds_word (v : BitVec 32) (h : 0 ≤ v.toInt ∧ v.toInt ≤ 99999) :
    IntOp.andi (IntOp.cmpi .sge v 0#32) (IntOp.cmpi .sle v 99999#32) = 1#1 := by
  have z : (0#32 : BitVec 32).toInt = 0 := by decide
  have n : (99999#32 : BitVec 32).toInt = 99999 := by decide
  exact IntOp.andi_eq_one.2 ⟨IntOp.cmpi_sge.2 (by omega), IntOp.cmpi_sle.2 (by omega)⟩

/-- For a word between 0 and 99999 (signed), the gather's clamp of its signed value into the table is its unsigned
    value, which the table's height does not reduce. -/
theorem clamp_word (v : BitVec 32) (h : 0 ≤ v.toInt ∧ v.toInt ≤ 99999) :
    min v.toInt.toNat 99999 = v.toNat % 100000 := by
  have hc := BitVec.toInt_eq_toNat_cond v
  have hl := v.isLt
  omega

/-! ## A reduction by "and" of an array of ones -/

/-- A reduction by "and" from the initial value 1 over an array whose every word is 1 is 1 at every result index. -/
theorem reduce_andi_of_forall {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, x i = 1#1) : Host.reduce IntOp.andi x init h hu j = 1#1 := by
  rw [Host.reduce_eq_foldl, hi]
  generalize (((List.finRange s.numel).map s.rowMajor.symm).filter fun i => h.drop i = j) = l
  have one : IntOp.andi 1#1 1#1 = 1#1 := by decide
  induction l with
  | nil => rfl
  | cons a l ih => rw [List.foldl_cons, hx a, one]; exact ih

/-! ## The gather read at an index -/

/-- The gather of table rows read at (b, t, q): the table at the row the start index (b, t, 0) names, read signed
    and clamped into the table, and at column q. The row axis is collapsed and indexed by the start index alone;
    the column axis is the result's offset axis. -/
theorem gather_rows_apply {α : Type} {w : Nat} (tab : S100000x128.Idx → α) (i3 : IVec S4096x50x1 w)
    (b : Fin 4096) (t : Fin 50) (q : Fin 128) :
    Host.gather gather_S100000x128_S4096x50x1_S4096x50x128_2_0_n_n_0_2_1128 tab i3 (ix3 b t q)
      = tab (ix2 (⟨min (i3 (ix3 b t (0 : Fin 1))).toInt.toNat 99999, by omega⟩ : Fin 100000) q) := by
  unfold Host.gather
  congr 1
  funext a
  refine Fin.ext ?_
  match a with
  | ⟨0, _⟩ =>
    show gather_S100000x128_S4096x50x1_S4096x50x128_2_0_n_n_0_2_1128.start (ix3 b t q) i3 0 + gather_S100000x128_S4096x50x1_S4096x50x128_2_0_n_n_0_2_1128.batchCoord (ix3 b t q) 0 + gather_S100000x128_S4096x50x1_S4096x50x128_2_0_n_n_0_2_1128.offCoord (ix3 b t q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin S100000x128.rank) ∈ gather_S100000x128_S4096x50x1_S4096x50x128_2_0_n_n_0_2_1128.startIndexMap from List.mem_singleton.mpr rfl)]
    have hsi : gather_S100000x128_S4096x50x1_S4096x50x128_2_0_n_n_0_2_1128.siIdx (ix3 b t q)
        ⟨List.idxOf (0 : Fin S100000x128.rank) gather_S100000x128_S4096x50x1_S4096x50x128_2_0_n_n_0_2_1128.startIndexMap,
          List.idxOf_lt_length_iff.2 (List.mem_singleton.mpr rfl)⟩ = ix3 b t (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S100000x128_S4096x50x1_S4096x50x128_2_0_n_n_0_2_1128.start (ix3 b t q) i3 1 + gather_S100000x128_S4096x50x1_S4096x50x128_2_0_n_n_0_2_1128.batchCoord (ix3 b t q) 1 + gather_S100000x128_S4096x50x1_S4096x50x128_2_0_n_n_0_2_1128.offCoord (ix3 b t q) 1 = q.val
    rw [GatherDims.batchCoord_eq_zero _ _ _ List.not_mem_nil]
    unfold GatherDims.start
    rw [dif_neg (show ¬ (1 : Fin S100000x128.rank) ∈ gather_S100000x128_S4096x50x1_S4096x50x128_2_0_n_n_0_2_1128.startIndexMap by decide)]
    unfold GatherDims.offCoord
    rw [dif_pos (show (1 : Fin S100000x128.rank) ∈ gather_S100000x128_S4096x50x1_S4096x50x128_2_0_n_n_0_2_1128.sKept by decide)]
    simp only [Nat.zero_add, Nat.add_zero]
    rfl

/-! ## The line's stages at an index, under the signed range -/

section Stages

variable (ids : IVec S4096x50 32) (hs : ∀ j, 0 ≤ (ids j).toInt ∧ (ids j).toInt ≤ 99999)
include hs

/-- No index is negative, so the normalisation changes nothing. -/
theorem normIdx_apply (k : S4096x50.Idx) : normIdx ids k = ids k := normalise_word (ids k) (hs k).1

/-- The start index at (b, t, c) is the index array's entry (b, t). -/
theorem idx3_apply (i : S4096x50x1.Idx) : idx3 ids i = ids (ix2 (i 0) (i 1)) := by
  unfold idx3
  refine (broadcastInDim_apply _ _ _ i (ix2 (i 0) (i 1)) fun a => ?_).trans (normIdx_apply ids hs _)
  match a with
  | ⟨0, _⟩ => rfl
  | ⟨1, _⟩ => rfl

/-- Every start index is within the bounds. -/
theorem inBounds_apply (i : S4096x50x1.Idx) : inBounds (idx3 ids) i = 1#1 := by
  show IntOp.andi (IntOp.cmpi .sge (idx3 ids i) 0#32) (IntOp.cmpi .sle (idx3 ids i) 99999#32) = 1#1
  rw [idx3_apply ids hs i]
  exact bounds_word _ (hs _)

/-- So the mask is all ones. -/
theorem mask_apply (k : S4096x50.Idx) : mask (idx3 ids) k = 1#1 :=
  reduce_andi_of_forall _ _ _ _ k rfl (inBounds_apply ids hs)

/-- So the select keeps the gathered value everywhere. -/
theorem sel_apply (tab : FVec F S100000x128 .f32) (i : S4096x50x128.Idx) :
    sel (mask (idx3 ids)) (rows tab (idx3 ids)) i = rows tab (idx3 ids) i := by
  have hm : broadcastInDim S4096x50x128 ![0, 1] bcast_S4096x50_S4096x50x128_0_1 (mask (idx3 ids)) i = 1#1 := by
    unfold broadcastInDim
    exact mask_apply ids hs _
  unfold sel
  rw [select_apply, hm]
  exact select_one _ _

/-- The gathered row (b, t) at column q is the table's row `ids (b, t)`, read as a natural number, at column q. -/
theorem rows_apply (tab : FVec F S100000x128 .f32) (b : Fin 4096) (t : Fin 50) (q : Fin 128) :
    rows tab (idx3 ids) (ix3 b t q) = tab (Cert.Proof.Spec.tabIx (ids (ix2 b t)).toNat q) := by
  unfold rows
  rw [gather_rows_apply]
  have e : idx3 ids (ix3 b t (0 : Fin 1)) = ids (ix2 b t) := idx3_apply ids hs _
  refine congrArg tab (congrArg (fun r : Fin 100000 => ix2 r q) (Fin.ext ?_))
  show min (idx3 ids (ix3 b t (0 : Fin 1))).toInt.toNat 99999 = (ids (ix2 b t)).toNat % 100000
  rw [e]
  exact clamp_word _ (hs _)

end Stages

/-! ## The reshape and the slice at an index -/

/-- The first-row extraction read at (b, q): its operand at (b, 0, q). -/
theorem firstRow_apply (s : FVec F S4096x50x128 .f32) (b : Fin 4096) (q : Fin 128) :
    firstRow s (ix2 b q) = s (ix3 b (0 : Fin 50) q) := by
  unfold firstRow
  refine (shapeCast_apply _ _ (ix2 b q) (ix3 b (0 : Fin 1) q) ?_).trans
    (extractStridedSlice_apply _ _ _ (ix3 b (0 : Fin 1) q) (ix3 b (0 : Fin 50) q) fun a => ?_)
  · rw [Shape.rowMajor_val_three, Shape.rowMajor_val_two]
    show (b.val * 1 + 0) * 128 + q.val = b.val * 128 + q.val
    omega
  · match a with
    | ⟨0, _⟩ => exact (Nat.zero_add _).symm
    | ⟨1, _⟩ => rfl
    | ⟨2, _⟩ => exact (Nat.zero_add _).symm

/-! ## The value -/

/-- Under the signed range of the index words, the reference's result is the pooled lookup:
    result[b, q] = table[ids[b, 0], q]. -/
theorem out_eq_lookup (ids : IVec S4096x50 32) (tab : FVec F S100000x128 .f32)
    (hs : ∀ j, 0 ≤ (ids j).toInt ∧ (ids j).toInt ≤ 99999) :
    Cert.Proof.RefRun.out ids tab = Cert.Proof.Spec.lookup ids tab := by
  funext j
  obtain ⟨b, q, rfl⟩ : ∃ b q, j = ix2 b q := ⟨j 0, j 1, eq_ix2 j⟩
  rw [Cert.Proof.Spec.lookup_apply]
  unfold Cert.Proof.RefRun.out
  rw [firstRow_apply, sel_apply ids hs, rows_apply ids hs]

end Cert.Proof.RefValue

end
-- ==== Proof.lean ====
/-
  The claim: an embedding lookup on the SparseCore against jnp.take(table, input_ids, axis=0)[:, 0].

  Both programs compute, from the index array ids : i32[4096, 50] and the table : f32[100000, 128],

      result[b, q] = table[ids[b, 0], q]        (b < 4096, q < 128)

  (Proof/Spec.lean's lookup). The kernel makes a list of the index array's first column on the host, and sixteen
  vector subcores each fetch 256 entries of that list, gather those rows of the table by the indirect stream and copy
  them out to their 256 rows of the result (Proof/KSetup, KValue, KTile, KLaunch for the program as printed; the same
  four read at the ideal instance for its idealization — the proof is generic in the float instance: rows are moved,
  never computed with). The reference normalises negative indices, gathers, masks indices out of range to NaN, then
  takes column 0 (Proof/RefRun, RefValue). Under the precondition every index lies in 0 … 99999 (Proof/PreDecode):
  the kernel's stream finds every row it is sent for, and on the reference's side the normalisation is the identity,
  the gather's clamp is the identity and the mask is all ones; so both results are the lookup, element by element.
  No arithmetic on table entries occurs on either side, so no finiteness of the table is used.
-/
import proofs.«211053_g26998164423141_cont_9to1_407_5_alg».proof.Defs
import proofs.«211053_g26998164423141_cont_9to1_407_5_alg».proof.Proof.Gen.Kernel
import proofs.«211053_g26998164423141_cont_9to1_407_5_alg».proof.Proof.Gen.Kernel.Skeleton
import proofs.«211053_g26998164423141_cont_9to1_407_5_alg».proof.Proof.Gen.KernelIdeal
import proofs.«211053_g26998164423141_cont_9to1_407_5_alg».proof.Proof.Gen.KernelIdeal.Skeleton
import proofs.«211053_g26998164423141_cont_9to1_407_5_alg».proof.Proof.Gen.ReferenceIdeal
import proofs.«211053_g26998164423141_cont_9to1_407_5_alg».proof.Proof.Gen.Pre_input_domain
import proofs.«211053_g26998164423141_cont_9to1_407_5_alg».proof.Proof.Spec
import proofs.«211053_g26998164423141_cont_9to1_407_5_alg».proof.Proof.PreDecode
import proofs.«211053_g26998164423141_cont_9to1_407_5_alg».proof.Proof.KLaunch
import proofs.«211053_g26998164423141_cont_9to1_407_5_alg».proof.Proof.KILaunch
import proofs.«211053_g26998164423141_cont_9to1_407_5_alg».proof.Proof.RefRun
import proofs.«211053_g26998164423141_cont_9to1_407_5_alg».proof.Proof.RefValue
import Idealize.ShloMosaic.Adequacy
import Idealize.ShloMosaic.Init

noncomputable section

namespace Cert.Proof

open Idealize.ShloMosaic Idealize.SL.Sem

/-- The program as printed runs to its end, nothing faulting, its argument arrays unchanged: its run with the result's
    value dropped. -/
theorem frame_k : Cert.frame_Kernel := fun m ρ hpre =>
  (θ_run Cert.Kernel.defs _ _).mono (fun _ h c => (h c).2)
    (Cert.Proof.KRun.run_main (F := Bits) m ρ (fun d => Cert.Proof.PreDecode.inRange_of_pre _ _ (hpre d)))

/-- The same for its idealization. -/
theorem frame_ki : Cert.frame_KernelIdeal := fun m ρ hpre =>
  (θ_run Cert.KernelIdeal.defs _ _).mono (fun _ h c => (h c).2)
    (Cert.Proof.KIRun.run_main (F := Ideal) m ρ (fun d => Cert.Proof.PreDecode.inRange_of_pre _ _ (hpre d)))

/-- The reference runs to its end with its argument arrays unchanged: its run with the result dropped. -/
theorem frame_ri : Cert.frame_ReferenceIdeal := fun m ρ _ =>
  (θ_run Cert.ReferenceIdeal.defs _ _).mono (fun _ h c => (h c).2) (Cert.Proof.RefRun.run (F := Ideal) m ρ)

/-- The ideal pass rewrote nothing. -/
theorem preserves : Cert.preserves_Kernel_KernelIdeal := trivial

/-- At the ideal instance, from memories agreeing on the arguments, both programs end with the result at the lookup of
    the two argument arrays. -/
theorem algebraic : Cert.algebraic_KernelIdeal_ReferenceIdeal := by
  intro m ρ m' ρ' hpre hagree
  refine ⟨fun c => Cert.Proof.Spec.lookup (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => h c)
      (Cert.Proof.KIRun.run_main (F := Ideal) m ρ (fun d => Cert.Proof.PreDecode.inRange_of_pre _ _ (hpre d)))
  · refine (θ_run Cert.ReferenceIdeal.defs _ _).mono (fun _ h c => ⟨?_, (h c).2⟩) (Cert.Proof.RefRun.run (F := Ideal) m' ρ')
    rw [(h c).1, (hagree c).1, (hagree c).2]
    exact Cert.Proof.RefValue.out_eq_lookup _ _ (Cert.Proof.PreDecode.signed_range _ _ (hpre c))

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
